-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x128 : Shape := ⟨2, ![32, 128]⟩
abbrev S16x3x128x512 : Shape := ⟨4, ![16, 3, 128, 512]⟩
abbrev S16x128 : Shape := ⟨2, ![16, 128]⟩
abbrev S16x1x128x512 : Shape := ⟨4, ![16, 1, 128, 512]⟩
abbrev S16x128x512 : Shape := ⟨3, ![16, 128, 512]⟩
abbrev S16x512 : Shape := ⟨2, ![16, 512]⟩
abbrev S16 : Shape := ⟨1, ![16]⟩
abbrev S16x1 : Shape := ⟨2, ![16, 1]⟩
abbrev S32x1 : Shape := ⟨2, ![32, 1]⟩
abbrev S32 : Shape := ⟨1, ![32]⟩
abbrev S_ : Shape := ⟨0, ![]⟩

abbrev nBuf : Space → Nat
  | .hbm => 8
  | .vmem => 5
  | .smem => 0
  | _ => 0

abbrev bufTy : (tb : Table) → Fin (tcTables nBuf tb) → BufTy
  | .hbm, ⟨0, _⟩ => ⟨S32x3x512x512, .f32⟩
  | .hbm, ⟨1, _⟩ => ⟨S32x128, .f32⟩
  | .hbm, ⟨2, _⟩ => ⟨S32x1, .f32⟩
  | .hbm, ⟨3, _⟩ => ⟨S32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S16x3x128x512, .f32⟩
  | .local _ .vmem, ⟨1, _⟩ => ⟨S16x3x128x512, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_15 : BitVec 32 := 0#32
  let v23 : BitVec 1 := Scalar.cmpi .ne v22 c0_i32_15
  v23

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x3x128x512_S16x1x128x512_0_0_0_0 : ∀ a, (![0, 0, 0, 0] : Fin 4 → Nat) a + S16x1x128x512.size a ≤ S16x3x128x512.size a
  h_S16x1x128x512 : 0 < S16x1x128x512.numel
  shapeCasts_S16x1x128x512_S16x128x512 : S16x1x128x512.ShapeCasts S16x128x512
  inb_S16x3x128x512_S16x1x128x512_0_1_0_0 : ∀ a, (![0, 1, 0, 0] : Fin 4 → Nat) a + S16x1x128x512.size a ≤ S16x3x128x512.size a
  inb_S16x3x128x512_S16x1x128x512_0_2_0_0 : ∀ a, (![0, 2, 0, 0] : Fin 4 → Nat) a + S16x1x128x512.size a ≤ S16x3x128x512.size a
  reduces_S16x128x512_S16x512 : S16x128x512.Reduces [1] S16x512
  reduces_S16x512_S16 : S16x512.Reduces [1] S16
  shapeCasts_S16_S16x1 : S16.ShapeCasts S16x1
  shapeCasts_S16x1_S16x1 : S16x1.ShapeCasts S16x1
  broadcasts_S16x1_S16x128 : S16x1.Broadcasts S16x128
  slices_S32x128_S32x1_0_0 : S32x128.Slices ![0, 0] S32x1
  shapeCasts_S32x1_S32 : S32x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x128x512.size a ≤ S32x3x512x512.size a
  hwx0_0 : ∀ i : grid0.Coords, EltTy.bits .f32 = 32 ∨ (Rect.block (s := S32x3x512x512) S16x3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S32x128.size a
  hwx0_1 : ∀ i : grid0.Coords, EltTy.bits .f32 = 32 ∨ (Rect.block (s := S32x128) S16x128.size (cc0_transform_1 i) (hinb0_1 i)).WholeWords (EltTy.packing .f32)

variable [Facts₀]

abbrev win0_0 : Pipeline.Window sig grid0 :=
  Pipeline.Window.ofSpec (Memref.whole main_arg0) S16x3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S32x3x1x512 : Shape := ⟨4, ![32, 3, 1, 512]⟩
abbrev S32x3x7x512 : Shape := ⟨4, ![32, 3, 7, 512]⟩
abbrev S32x3x519x512 : Shape := ⟨4, ![32, 3, 519, 512]⟩
abbrev S32x3x526x512 : Shape := ⟨4, ![32, 3, 526, 512]⟩
abbrev S32x3x526x1 : Shape := ⟨4, ![32, 3, 526, 1]⟩
abbrev S32x3x526x7 : Shape := ⟨4, ![32, 3, 526, 7]⟩
abbrev S32x3x526x519 : Shape := ⟨4, ![32, 3, 526, 519]⟩
abbrev S32x3x526x526 : Shape := ⟨4, ![32, 3, 526, 526]⟩
abbrev S32x526x526 : Shape := ⟨3, ![32, 526, 526]⟩
abbrev S32x526 : Shape := ⟨2, ![32, 526]⟩
abbrev S32 : Shape := ⟨1, ![32]⟩

abbrev nBuf : Space → Nat
  | .hbm => 28
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S_, .i32⟩
  | .hbm, ⟨2, _⟩ => ⟨S32x3x1x512, .f32⟩
  | .hbm, ⟨3, _⟩ => ⟨S32x3x7x512, .f32⟩
  | .hbm, ⟨4, _⟩ => ⟨S32x3x7x512, .f32⟩
  | .hbm, ⟨5, _⟩ => ⟨S32x3x519x512, .f32⟩
  | .hbm, ⟨6, _⟩ => ⟨S32x3x1x512, .f32⟩
  | .hbm, ⟨7, _⟩ => ⟨S32x3x7x512, .f32⟩
  | .hbm, ⟨8, _⟩ => ⟨S32x3x7x512, .f32⟩
  | .hbm, ⟨9, _⟩ => ⟨S32x3x526x512, .f32⟩
  | .hbm, ⟨10, _⟩ => ⟨S32x3x526x1, .f32⟩
  | .hbm, ⟨11, _⟩ => ⟨S32x3x526x7, .f32⟩
  | .hbm, ⟨12, _⟩ => ⟨S32x3x526x7, .f32⟩
  | .hbm, ⟨13, _⟩ => ⟨S32x3x526x519, .f32⟩
  | .hbm, ⟨14, _⟩ => ⟨S32x3x526x1, .f32⟩
  | .hbm, ⟨15, _⟩ => ⟨S32x3x526x7, .f32⟩
  | .hbm, ⟨16, _⟩ => ⟨S32x3x526x7, .f32⟩
  | .hbm, ⟨17, _⟩ => ⟨S32x3x526x526, .f32⟩
  | .hbm, ⟨18, _⟩ => ⟨S_, .f32⟩
  | .hbm, ⟨19, _⟩ => ⟨S32x526x526, .f32⟩
  | .hbm, ⟨20, _⟩ => ⟨S_, .f32⟩
  | .hbm, ⟨21, _⟩ => ⟨S32x526, .f32⟩
  | .hbm, ⟨22, _⟩ => ⟨S_, .f32⟩
  | .hbm, ⟨23, _⟩ => ⟨S32, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_cst_1 : Ref sig .tc := ⟨.hbm, 22, rfl⟩
abbrev main_v3 : Ref sig .tc := ⟨.hbm, 23, rfl⟩
abbrev main_cst_2 : Ref sig .tc := ⟨.hbm, 24, rfl⟩
abbrev main_v4 : Ref sig .tc := ⟨.hbm, 25, rfl⟩
abbrev main_cst_3 : Ref sig .tc := ⟨.hbm, 26, rfl⟩
abbrev main_v5 : Ref sig .tc := ⟨.hbm, 27, rfl⟩

abbrev nD : Nat := 1
abbrev τ : Topo := Topo.v7x

variable {F : FTy → Type} [FloatOps F]

class Facts₀ : Prop where
  slices_S32x3x512x512_S32x3x1x512_0_0_0_0 : S32x3x512x512.Slices ![0, 0, 0, 0] S32x3x1x512
  slices_S32x3x512x512_S32x3x7x512_0_0_1_0 : S32x3x512x512.Slices ![0, 0, 1, 0] S32x3x7x512
  concatenates_S32x3x7x512_S32x3x512x512_S32x3x519x512_d2 : Shape.Concatenates [S32x3x7x512, S32x3x512x512] S32x3x519x512 2
  slices_S32x3x519x512_S32x3x1x512_0_0_518_0 : S32x3x519x512.Slices ![0, 0, 518, 0] S32x3x1x512
  slices_S32x3x519x512_S32x3x7x512_0_0_511_0 : S32x3x519x512.Slices ![0, 0, 511, 0] S32x3x7x512
  concatenates_S32x3x519x512_S32x3x7x512_S32x3x526x512_d2 : Shape.Concatenates [S32x3x519x512, S32x3x7x512] S32x3x526x512 2
  slices_S32x3x526x512_S32x3x526x1_0_0_0_0 : S32x3x526x512.Slices ![0, 0, 0, 0] S32x3x526x1
  slices_S32x3x526x512_S32x3x526x7_0_0_0_1 : S32x3x526x512.Slices ![0, 0, 0, 1] S32x3x526x7
  concatenates_S32x3x526x7_S32x3x526x512_S32x3x526x519_d3 : Shape.Concatenates [S32x3x526x7, S32x3x526x512] S32x3x526x519 3
  slices_S32x3x526x519_S32x3x526x1_0_0_0_518 : S32x3x526x519.Slices ![0, 0, 0, 518] S32x3x526x1
  slices_S32x3x526x519_S32x3x526x7_0_0_0_511 : S32x3x526x519.Slices ![0, 0, 0, 511] S32x3x526x7
  concatenates_S32x3x526x519_S32x3x526x7_S32x3x526x526_d3 : Shape.Concatenates [S32x3x526x519, S32x3x526x7] S32x3x526x526 3
  reducesTo_S32x3x526x526_S32x526x526_d1 : S32x3x526x526.ReducesTo [1] S32x526x526
  h_S_ : 0 < S_.numel
  reducesTo_S32x526x526_S32x526_d1 : S32x526x526.ReducesTo [1] S32x526
  reducesTo_S32x526_S32_d1 : S32x526.ReducesTo [1] S32
  reducesTo_S32_S_d0 : S32.ReducesTo [0] S_

variable [Facts₀]

class Facts : Prop extends Facts₀ where

variable [Facts]
-- ==== Proof.KernelPieces.lean ====
/-
  What one run of the kernel body leaves behind, as values. The body keeps a running minimum in a scratch
  buffer: at the first row tile of an image chunk it first fills the scratch with the starting word, then (at
  every tile) stores into it the old contents met with the tile's minimum, and at the last row tile it copies
  the scratch into the output block. Each of the three control cases ends with ONE covering store into the
  scratch (and, in the last case, one into the output), so what the buffer holds is that store's payload: the
  body's arithmetic applied to the three channel slabs of the input block and to the scratch as the body found
  it (the starting word in the first case).
-/
import proofs.«151754_j72593537237683_2_alg».proof.Proof.Gen.KernelIdeal.Frame
import Idealize.ShloMosaic.Lib.Pipeline.Value
import Idealize.ShloMosaic.Lib.Tactic

noncomputable section

namespace Cert.KernelIdeal.KVal

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl

/-- Channel 0 of an input block, as the body's first load reads it: a `[16, 1, 128, 512]` slab. -/
abbrev slab0 (x0 : Vec F S16x3x128x512 .f32) : Vec F S16x1x128x512 .f32 :=
  View.ld x0 (Rect.unit (s := S16x3x128x512) ![0, 0, 0, 0] S16x1x128x512.size inb_S16x3x128x512_S16x1x128x512_0_0_0_0)
/-- Channel 1 of an input block. -/
abbrev slab1 (x0 : Vec F S16x3x128x512 .f32) : Vec F S16x1x128x512 .f32 :=
  View.ld x0 (Rect.unit (s := S16x3x128x512) ![0, 1, 0, 0] S16x1x128x512.size inb_S16x3x128x512_S16x1x128x512_0_1_0_0)
/-- Channel 2 of an input block. -/
abbrev slab2 (x0 : Vec F S16x3x128x512 .f32) : Vec F S16x1x128x512 .f32 :=
  View.ld x0 (Rect.unit (s := S16x3x128x512) ![0, 2, 0, 0] S16x1x128x512.size inb_S16x3x128x512_S16x1x128x512_0_2_0_0)

/-- The body's step: the scratch contents `acc` met with the minimum of the block `x0`. -/
abbrev step (x0 : Vec F S16x3x128x512 .f32) (acc : Vec F S16x128 .f32) : Vec F S16x128 .f32 :=
  k0_pay2 (slab0 x0) (slab1 x0) (slab2 x0) acc

/-- First row tile: the scratch is filled with the starting word, then stepped. -/
theorem sout_A (c : Dev nD) (i : grid0.Coords) (a2 : Memref sig .tc .vmem S16x3x128x512 .f32) (h2 : a2.IsWhole)
    (a3 : Memref sig .tc .vmem S16x128 .f32) (h3 : a3.IsWhole) (a4 : Memref sig .tc .vmem S16x128 .f32) (h4 : a4.IsWhole)
    (hc0 : cond0_0 i) (hc1 : ¬cond0_1 i) (x0 : Vec F S16x3x128x512 .f32) :
    sout0_A_0 c i a2 h2 a3 h3 a4 h4 hc0 hc1 x0 = step x0 k0_pay1 := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S16x128) hz2, View.readCov_unit_zero (S := S16x128) _ hz2]
  simp only [View.readAt_eq_ld, h2.read_unread]

/-- A middle row tile: the scratch as the tile before left it, stepped. -/
theorem sout_B (c : Dev nD) (i : grid0.Coords) (a2 : Memref sig .tc .vmem S16x3x128x512 .f32) (h2 : a2.IsWhole)
    (a3 : Memref sig .tc .vmem S16x128 .f32) (h3 : a3.IsWhole) (a4 : Memref sig .tc .vmem S16x128 .f32) (h4 : a4.IsWhole)
    (hc0 : ¬cond0_0 i) (hc1 : ¬cond0_1 i) (x0 : Vec F S16x3x128x512 .f32) (xs0 : Vec F S16x128 .f32) :
    sout0_B_0 c i a2 h2 a3 h3 a4 h4 hc0 hc1 x0 xs0 = step x0 xs0 := by
  unfold sout0_B_0
  rw [View.read_writes_eq_canon _ _ _ (scover0_B_0 c i a2 h2 a3 h3 a4 h4 hc0 hc1 x0 xs0)]
  unfold kernelRun0_B
  dsimp only
  rw [View.canon_unit_zero hz2]
  simp only [View.readAt_eq_ld, h2.read_unread, h4.read_unread, View.ld_unit_zero (S := S16x128) hz2]

/-- The last row tile, the scratch: as in a middle tile. -/
theorem sout_C (c : Dev nD) (i : grid0.Coords) (a2 : Memref sig .tc .vmem S16x3x128x512 .f32) (h2 : a2.IsWhole)
    (a3 : Memref sig .tc .vmem S16x128 .f32) (h3 : a3.IsWhole) (a4 : Memref sig .tc .vmem S16x128 .f32) (h4 : a4.IsWhole)
    (hc0 : ¬cond0_0 i) (hc1 : cond0_1 i) (x0 : Vec F S16x3x128x512 .f32) (xs0 : Vec F S16x128 .f32) :
    sout0_C_0 c i a2 h2 a3 h3 a4 h4 hc0 hc1 x0 xs0 = step x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz2]
  simp only [View.readAt_eq_ld, h2.read_unread, h4.read_unread, View.ld_unit_zero (S := S16x128) hz2]

/-- The last row tile, the output block: the scratch after its step, copied. -/
theorem out_C (c : Dev nD) (i : grid0.Coords) (a2 : Memref sig .tc .vmem S16x3x128x512 .f32) (h2 : a2.IsWhole)
    (a3 : Memref sig .tc .vmem S16x128 .f32) (h3 : a3.IsWhole) (a4 : Memref sig .tc .vmem S16x128 .f32) (h4 : a4.IsWhole)
    (hc0 : ¬cond0_0 i) (hc1 : cond0_1 i) (x0 : Vec F S16x3x128x512 .f32) (xs0 : Vec F S16x128 .f32) :
    out0_C_1 c i a2 h2 a3 h3 a4 h4 hc0 hc1 x0 xs0 = step x0 xs0 := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz2, View.readCov_unit_zero (S := S16x128) _ hz2]
  simp only [View.readAt_eq_ld, h2.read_unread, h4.read_unread, View.ld_unit_zero (S := S16x128) hz2]

end Cert.KernelIdeal.KVal

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.LibMinBounds.lean ====
/-
  Lower bounds of minima over the extended reals. A minimum taken by a fold — the host's one-operand
  reduce with a minimum body, a vector multi-reduction of kind minimum — is characterised by its lower
  bounds: a number lies below the result exactly when it lies below the starting value and below every
  entry that reduces to the index. Two results with the same lower bounds are equal, so two programs
  that take the same minimum in different orders, groupings or tilings agree without any unfolding of
  the folds themselves. No finiteness is needed: the extended reals are a linear order.
-/
import Idealize.ShloMosaic.PureOps.Ideal
import Idealize.ShloMosaic.PureOps.Ideal.Laws
import Idealize.ShloMosaic.PureOps.Reduce

noncomputable section

namespace Cert.LibMinBounds

open Idealize.ShloMosaic

/-- A fold of the ideal minimum over a finite set lies above `z` exactly when its start and every term do. -/
theorem le_fold_minimumf {ι : Type} {φ : FTy} (S : Finset ι) (b : Ideal φ) (f : ι → Ideal φ) (z : EReal) :
    z ≤ S.fold (FloatOps.minimumf (F := Ideal) (φ := φ)) b f ↔ z ≤ b ∧ ∀ i ∈ S, z ≤ f i :=
  Finset.le_fold_min (s := S) (b := b) (f := f) (c := z)

/-- The host's reduce with a minimum body, at an index: its lower bounds are those of the initial value
    and of every operand entry that drops to the index. -/
theorem le_hostReduce_min {s t u : Shape} {axes : List (Fin s.rank)} {φ : FTy} (x : s.Idx → Ideal φ)
    (init : u.Idx → Ideal φ) (h : s.ReducesTo axes t) (hu : 0 < u.numel) (j : t.Idx) (z : EReal) :
    z ≤ Host.reduce (FloatOps.minimumf (F := Ideal) (φ := φ)) x init h hu j
      ↔ z ≤ init (Shape.Idx.first hu) ∧ ∀ i : s.Idx, h.drop i = j → z ≤ x i := by
  rw [Host.reduce_eq_fold, le_fold_minimumf]
  simp only [Finset.mem_filter, Finset.mem_univ, true_and]

/-- A vector multi-reduction of kind minimum, at an index: its lower bounds are those of the accumulator's
    value and of every source entry that drops to the index. -/
theorem le_multiReduction_min {s t : Shape} {axes : List (Fin s.rank)} {φ : FTy} (src : FVec Ideal s φ)
    (acc : BitVec φ.bits) (h : s.Reduces axes t) (hφ : FKind.Formats φ) (hacc : acc = FKind.minimumf.neutral φ hφ)
    (j : t.Idx) (z : EReal) :
    z ≤ multiReduction .minimumf axes t src acc h hφ hacc j
      ↔ z ≤ Ideal.ofBits φ acc ∧ ∀ i : s.Idx, h.drop i = j → z ≤ src i := by
  rw [multiReduction_minimumf_eq_fold, le_fold_minimumf]
  simp only [Finset.mem_filter, Finset.mem_univ, true_and, Ideal.ofBits_def]

/-- Two extended reals with the same lower bounds are equal. -/
theorem eq_of_forall_le_iff {a b : EReal} (h : ∀ z : EReal, z ≤ a ↔ z ≤ b) : a = b :=
  le_antisymm ((h a).mp le_rfl) ((h b).mpr le_rfl)

end Cert.LibMinBounds

end
-- ==== Proof.LibMinAxis.lean ====
/-
  Minima along ONE axis, by lower bounds. When a reduction drops a single axis, the entries that reduce to an
  index `j` are `j` with each coordinate `k` of the dropped axis put back; so a number lies below a minimum
  along that axis exactly when it lies below the starting value and below the entry at every `k`. Stated for a
  vector multi-reduction of kind minimum and for the host's reduce with a minimum body, over the extended
  reals; and the two index facts used with them: the middle axis of a three-axis stack put back, and a
  four-axis slab with a unit second axis cast to three axes.
-/
import Idealize.ShloMosaic.Lib.Pipeline.Value
import Idealize.ShloMosaic.Lib.ValueIdx
import Idealize.ShloMosaic.PureOps.Ideal.Laws
import proofs.«151754_j72593537237683_2_alg».proof.Proof.LibMinBounds

noncomputable section

namespace Cert.LibMinAxis

open Idealize.ShloMosaic Idealize.ShloMosaic.ValueIdx

/-- The indices that drop to `j` along one axis are `j` with a coordinate of that axis inserted. -/
theorem forall_drop_iff {s t : Shape} {a : Fin s.rank} (h : s.Reduces [a] t) (j : t.Idx) (P : s.Idx → Prop) :
    (∀ i : s.Idx, h.drop i = j → P i) ↔ ∀ k : Fin (s.size a), P (h.lift j k) :=
  ⟨fun H k => H _ (h.drop_lift j k), fun H i hi => by
    have e := H (i a)
    rw [← hi, h.lift_drop] at e
    exact e⟩

/-- A multi-reduction of kind minimum along one axis: its lower bounds are those of the accumulator's value
    and of the source at every coordinate of the dropped axis. -/
theorem le_multiReduction_min_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) (z : EReal) :
    z ≤ multiReduction .minimumf [a] t src acc h hφ hacc j
      ↔ z ≤ Ideal.ofBits φ acc ∧ ∀ k : Fin (s.size a), z ≤ src (h.lift j k) :=
  (Cert.LibMinBounds.le_multiReduction_min src acc h hφ hacc j z).trans
    (and_congr Iff.rfl (forall_drop_iff h j fun i => z ≤ src i))

/-- The host's reduce with a minimum body along one axis, likewise. -/
theorem le_hostReduce_min_single {s t u : Shape} {a : Fin s.rank} {φ : FTy} (x : s.Idx → Ideal φ)
    (init : u.Idx → Ideal φ) (h' : s.ReducesTo [a] t) (h : s.Reduces [a] t) (hu : 0 < u.numel) (j : t.Idx) (z : EReal) :
    z ≤ Host.reduce (FloatOps.minimumf (F := Ideal) (φ := φ)) x init h' hu j
      ↔ z ≤ init (Shape.Idx.first hu) ∧ ∀ k : Fin (s.size a), z ≤ x (h.lift j k) := by
  refine (Cert.LibMinBounds.le_hostReduce_min x init h' hu j z).trans (and_congr Iff.rfl ?_)
  rw [Shape.ReducesTo.drop_eq_drop h' h]
  exact forall_drop_iff h j fun i => z ≤ x i

/-- Entry `(p, q)` of a `[a, c]` matrix with coordinate `k` of the dropped middle axis put back is `(p, k, q)`. -/
theorem lift_mid {a b c : ℕ} (h : (⟨3, ![a, b, c]⟩ : Shape).Reduces [1] (⟨2, ![a, c]⟩ : Shape)) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

/-- A slab `[a, 1, b, c]` cast to `[a, b, c]` reads, at `(p, r, q)`, the slab at `(p, 0, r, q)`. -/
theorem shapeCast_a1bc_abc_apply {α : Type} {a b c : ℕ} (x : (⟨4, ![a, 1, b, c]⟩ : Shape).Idx → α)
    (h : (⟨4, ![a, 1, b, c]⟩ : Shape).ShapeCasts ⟨3, ![a, b, c]⟩) (p : Fin a) (r : Fin b) (q : Fin c) :
    shapeCast ⟨3, ![a, b, c]⟩ x h (ix3 p r q) = x (ix4 p (0 : Fin 1) r q) :=
  shapeCast_apply x h _ _ (by
    rw [Shape.rowMajor_val_four, Shape.rowMajor_val_three]
    show ((p.val * 1 + 0) * b + r.val) * c + q.val = (p.val * b + r.val) * c + q.val
    rw [Nat.mul_one, Nat.add_zero])

end Cert.LibMinAxis

end
-- ==== Proof.Spec.lean ====
/-
  What both programs compute, as one statement. For an image batch `x` of shape [32, 3, 512, 512] the
  per-image minimum over channels, rows and columns is said by its lower bounds (`IsBatchMin`): a number
  lies below entry `b` of the vector exactly when it lies below the starting word of the minima and below
  every `x b c h w`. A vector with that property is unique (`IsBatchMin.unique`), so it does not matter in
  which order, grouping, tiling — or over which mirrored copies of the pixels — a program takes the minimum.
  Both programs then average the 32 minima the same way: the sum from zero divided by 32 (`mean32`), kept
  as one function that is never opened.
-/
import Idealize.ShloMosaic.PureOps.Ideal
import Idealize.ShloMosaic.Lib.ValueIdx
import proofs.«151754_j72593537237683_2_alg».proof.Proof.LibMinBounds

noncomputable section

namespace Cert.DarkMin

open Idealize.ShloMosaic Idealize.ShloMosaic.ValueIdx

/-- The word every minimum starts from (the f32 pattern of +inf), as an extended real; never evaluated. -/
abbrev top : EReal := Ideal.ofBits .f32 0x7F800000#32

/-- `v` holds, per image, the minimum of `x` over channels, rows and columns — said by lower bounds. -/
def IsBatchMin (x : (⟨4, ![32, 3, 512, 512]⟩ : Shape).Idx → EReal) (v : (⟨1, ![32]⟩ : Shape).Idx → EReal) : Prop :=
  ∀ (b : Fin 32) (z : EReal), z ≤ v (ix1 b) ↔ z ≤ top ∧ ∀ (c : Fin 3) (h w : Fin 512), z ≤ x (ix4 b c h w)

/-- The per-image minima are determined by the batch. -/
theorem IsBatchMin.unique {x : (⟨4, ![32, 3, 512, 512]⟩ : Shape).Idx → EReal} {v v' : (⟨1, ![32]⟩ : Shape).Idx → EReal}
    (h : IsBatchMin x v) (h' : IsBatchMin x v') : v = v' := by
  funext j
  obtain ⟨b, rfl⟩ : ∃ b : Fin 32, j = ix1 b := ⟨j 0, eq_ix1 j⟩
  exact Cert.LibMinBounds.eq_of_forall_le_iff fun z => (h b z).trans (h' b z).symm

/-- The mean of 32 numbers as both programs spell it: the host's sum from the zero word, divided by the word of 32. -/
def mean32 (v : FVec Ideal ⟨1, ![32]⟩ .f32) (h1 : (⟨1, ![32]⟩ : Shape).ReducesTo [0] ⟨0, ![]⟩)
    (h2 : 0 < (⟨0, ![]⟩ : Shape).numel) : FVec Ideal ⟨0, ![]⟩ .f32 :=
  Host.divf (F := Ideal) (Host.reduceAdd (F := Ideal) v (constant (F := Ideal) ⟨0, ![]⟩ .f32 0x00000000#32) h1 h2)
    (constant (F := Ideal) ⟨0, ![]⟩ .f32 0x42000000#32)

end Cert.DarkMin

end
-- ==== Proof.KernelPay.lean ====
/-
  The kernel body's arithmetic at one grid point, read at an index by lower bounds. The body takes the three
  channel slabs of its input block, their pointwise minimum, the minimum over the 128 rows of the tile and
  then over the 512 columns, and folds the result, copied along the 128 lanes, into the running accumulator by
  one more minimum. So a number lies below the new accumulator at `(p, l)` exactly when it lies below the old
  one there, below the starting word, and below every entry `(p, ·, r, q)` of the three slabs.
-/
import proofs.«151754_j72593537237683_2_alg».proof.Proof.Gen.KernelIdeal.Skeleton
import proofs.«151754_j72593537237683_2_alg».proof.Proof.LibKeepdims
import proofs.«151754_j72593537237683_2_alg».proof.Proof.LibMinAxis
import proofs.«151754_j72593537237683_2_alg».proof.Proof.Spec

noncomputable section

namespace Cert.KernelIdeal.KVal

open Idealize.ShloMosaic Idealize.ShloMosaic.ValueIdx
open Cert.KernelIdeal Cert.KernelIdeal.Gen Cert.DarkMin

/-- The minimum over one tile, per image of the block: channels, then rows, then columns. -/
def rowMin (v3 v5 v7 : Vec Ideal S16x1x128x512 .f32) : FVec Ideal S16 .f32 :=
  multiReduction .minimumf [1] S16
    (multiReduction .minimumf [1] S16x512
      (minimumf (minimumf (shapeCast S16x128x512 v3 shapeCasts_S16x1x128x512_S16x128x512)
        (shapeCast S16x128x512 v5 shapeCasts_S16x1x128x512_S16x128x512))
        (shapeCast S16x128x512 v7 shapeCasts_S16x1x128x512_S16x128x512))
      0x7F800000#32 reduces_S16x128x512_S16x512 (.inl rfl) rfl)
    0x7F800000#32 reduces_S16x512_S16 (.inl rfl) rfl

/-- The stored payload at `(p, l)`: the old accumulator there, met with the tile's minimum for image `p`. -/
theorem pay2_apply (v3 v5 v7 : Vec Ideal S16x1x128x512 .f32) (acc : Vec Ideal S16x128 .f32) (p : Fin 16) (l : Fin 128) :
    k0_pay2 (F := Ideal) v3 v5 v7 acc (ix2 p l) = min (acc (ix2 p l)) (rowMin v3 v5 v7 (ix1 p)) := by
  unfold k0_pay2
  simp only [shapeCast_self]
  rw [minimumf_apply, broadcastTo_a1_ab_apply, shapeCast_a_a1_apply]
  rfl

/-- The tile's minimum for image `p`, by lower bounds. -/
theorem le_rowMin (v3 v5 v7 : Vec Ideal S16x1x128x512 .f32) (p : Fin 16) (z : EReal) :
    z ≤ rowMin v3 v5 v7 (ix1 p) ↔ z ≤ top ∧ ∀ (r : Fin 128) (q : Fin 512),
      z ≤ v3 (ix4 p (0 : Fin 1) r q) ∧ z ≤ v5 (ix4 p (0 : Fin 1) r q) ∧ z ≤ v7 (ix4 p (0 : Fin 1) r q) := by
  unfold rowMin
  refine (Cert.LibMinAxis.le_multiReduction_min_single _ _ reduces_S16x512_S16 _ _ (ix1 p) z).trans ?_
  have inner : ∀ q : Fin 512, z ≤ multiReduction (F := Ideal) .minimumf [1] S16x512
        (minimumf (minimumf (shapeCast S16x128x512 v3 shapeCasts_S16x1x128x512_S16x128x512)
          (shapeCast S16x128x512 v5 shapeCasts_S16x1x128x512_S16x128x512))
          (shapeCast S16x128x512 v7 shapeCasts_S16x1x128x512_S16x128x512))
        0x7F800000#32 reduces_S16x128x512_S16x512 (.inl rfl) rfl (ix2 p q)
      ↔ z ≤ top ∧ ∀ r : Fin 128, z ≤ v3 (ix4 p (0 : Fin 1) r q) ∧ z ≤ v5 (ix4 p (0 : Fin 1) r q) ∧ z ≤ v7 (ix4 p (0 : Fin 1) r q) := by
    intro q
    refine (Cert.LibMinAxis.le_multiReduction_min_single _ _ reduces_S16x128x512_S16x512 _ _ (ix2 p q) z).trans ?_
    refine and_congr Iff.rfl ⟨fun H r => ?_, fun H k => ?_⟩
    · have e := H (⟨r.val, r.isLt⟩ : Fin (S16x128x512.size 1))
      rw [Cert.LibMinAxis.lift_mid, minimumf_apply, minimumf_apply, Cert.LibMinAxis.shapeCast_a1bc_abc_apply,
        Cert.LibMinAxis.shapeCast_a1bc_abc_apply, Cert.LibMinAxis.shapeCast_a1bc_abc_apply, le_min_iff, le_min_iff] at e
      exact ⟨e.1.1, e.1.2, e.2⟩
    · rw [Cert.LibMinAxis.lift_mid, minimumf_apply, minimumf_apply, Cert.LibMinAxis.shapeCast_a1bc_abc_apply,
        Cert.LibMinAxis.shapeCast_a1bc_abc_apply, Cert.LibMinAxis.shapeCast_a1bc_abc_apply, le_min_iff, le_min_iff]
      have e := H (⟨k.val, k.isLt⟩ : Fin 128)
      exact ⟨⟨e.1, e.2.1⟩, e.2.2⟩
  constructor
  · rintro ⟨h0, H⟩
    refine ⟨h0, fun r q => ?_⟩
    have e := H (⟨q.val, q.isLt⟩ : Fin (S16x512.size 1))
    rw [lift_rows] at e
    exact ((inner q).mp e).2 r
  · rintro ⟨h0, H⟩
    refine ⟨h0, fun k => ?_⟩
    rw [lift_rows]
    exact (inner ⟨k.val, k.isLt⟩).mpr ⟨h0, fun r => H r _⟩

/-- The stored payload at `(p, l)`, by lower bounds. -/
theorem le_pay2 (v3 v5 v7 : Vec Ideal S16x1x128x512 .f32) (acc : Vec Ideal S16x128 .f32) (p : Fin 16) (l : Fin 128) (z : EReal) :
    z ≤ k0_pay2 (F := Ideal) v3 v5 v7 acc (ix2 p l) ↔ z ≤ acc (ix2 p l) ∧ z ≤ top ∧ ∀ (r : Fin 128) (q : Fin 512),
      z ≤ v3 (ix4 p (0 : Fin 1) r q) ∧ z ≤ v5 (ix4 p (0 : Fin 1) r q) ∧ z ≤ v7 (ix4 p (0 : Fin 1) r q) := by
  rw [pay2_apply, le_min_iff, le_rowMin]

/-- The accumulator's starting contents: the starting word at every entry. -/
theorem pay1_apply (j : S16x128.Idx) : k0_pay1 (F := Ideal) j = top := by
  unfold k0_pay1
  simp only [shapeCast_self]
  rfl

end Cert.KernelIdeal.KVal

end
-- ==== Proof.KernelAcc.lean ====
/-
  The running minimum across the grid. The grid walks 2 image chunks of 16 images by 4 row tiles of 128 rows;
  the scratch is reset at the first tile of a chunk and stepped at every tile. By induction on the grid point,
  after the tile numbered `s` of chunk `g` the scratch entry `(p, l)` is, in terms of lower bounds, the minimum of
  image `16 g + p` over all channels, all columns and the rows below `128 (s + 1)`: each step adds exactly the
  rows of its own tile, which the input window's block reads from the argument array at row `128 s + r`. After
  the last tile (all 512 rows) the output block holds the same contents.
-/
import proofs.«151754_j72593537237683_2_alg».proof.Proof.KernelPieces
import proofs.«151754_j72593537237683_2_alg».proof.Proof.KernelPay

noncomputable section

namespace Cert.KernelIdeal.KVal

open Idealize.ShloMosaic Idealize.ShloMosaic.TcCoe Idealize.SL.Sem Idealize.ShloMosaic.ValueIdx
open Cert.KernelIdeal Cert.KernelIdeal.Gen Cert.DarkMin

variable (m : (ℓ : Loc nD τ sig) → Buf (Elt Ideal) ℓ)

/-! ## The step at an index -/

theorem slab0_apply (x0 : Vec Ideal S16x3x128x512 .f32) (p : Fin 16) (r : Fin 128) (q : Fin 512) :
    slab0 x0 (ix4 p (0 : Fin 1) r q) = x0 (ix4 p (0 : Fin 3) r q) :=
  congrArg x0 (funext fun a => Fin.ext (by
    match a with
    | ⟨0, _⟩ => show 0 + 1 * p.val = p.val; omega
    | ⟨1, _⟩ => show 0 + 1 * 0 = 0; rfl
    | ⟨2, _⟩ => show 0 + 1 * r.val = r.val; omega
    | ⟨3, _⟩ => show 0 + 1 * q.val = q.val; omega))

theorem slab1_apply (x0 : Vec Ideal S16x3x128x512 .f32) (p : Fin 16) (r : Fin 128) (q : Fin 512) :
    slab1 x0 (ix4 p (0 : Fin 1) r q) = x0 (ix4 p (1 : Fin 3) r q) :=
  congrArg x0 (funext fun a => Fin.ext (by
    match a with
    | ⟨0, _⟩ => show 0 + 1 * p.val = p.val; omega
    | ⟨1, _⟩ => show 1 + 1 * 0 = 1; rfl
    | ⟨2, _⟩ => show 0 + 1 * r.val = r.val; omega
    | ⟨3, _⟩ => show 0 + 1 * q.val = q.val; omega))

theorem slab2_apply (x0 : Vec Ideal S16x3x128x512 .f32) (p : Fin 16) (r : Fin 128) (q : Fin 512) :
    slab2 x0 (ix4 p (0 : Fin 1) r q) = x0 (ix4 p (2 : Fin 3) r q) :=
  congrArg x0 (funext fun a => Fin.ext (by
    match a with
    | ⟨0, _⟩ => show 0 + 1 * p.val = p.val; omega
    | ⟨1, _⟩ => show 2 + 1 * 0 = 2; rfl
    | ⟨2, _⟩ => show 0 + 1 * r.val = r.val; omega
    | ⟨3, _⟩ => show 0 + 1 * q.val = q.val; omega))

/-- One step at `(p, l)`, by lower bounds: the old entry, the starting word, and every entry of image `p` of the block. -/
theorem le_step (x0 : Vec Ideal S16x3x128x512 .f32) (acc : Vec Ideal S16x128 .f32) (p : Fin 16) (l : Fin 128) (z : EReal) :
    z ≤ step x0 acc (ix2 p l) ↔ z ≤ acc (ix2 p l) ∧ z ≤ top ∧ ∀ (k : Fin 3) (r : Fin 128) (q : Fin 512), z ≤ x0 (ix4 p k r q) := by
  show z ≤ k0_pay2 (F := Ideal) (slab0 x0) (slab1 x0) (slab2 x0) acc (ix2 p l) ↔ _
  rw [le_pay2]
  refine and_congr Iff.rfl (and_congr Iff.rfl ⟨fun H k r q => ?_, fun H r q => ?_⟩)
  · have e := H r q
    rw [slab0_apply, slab1_apply, slab2_apply] at e
    fin_cases k
    · exact e.1
    · exact e.2.1
    · exact e.2.2
  · rw [slab0_apply, slab1_apply, slab2_apply]
    exact ⟨H 0 r q, H 1 r q, H 2 r q⟩

/-! ## The input window's block, read from the argument array -/

/-- Block `(g, s)` of the input window starts at image `16 g`, channel 0, row `128 s`, column 0 (`t = 4 g + s`). -/
theorem widx0 (t : Fin cfg0.N) :
    win0_0.index t 0 = t.val / 4 ∧ win0_0.index t 1 = 0 ∧ win0_0.index t 2 = t.val % 4 ∧ win0_0.index t 3 = 0 :=
  (by decide +kernel : ∀ t : Fin grid0.N,
    win0_0.index t 0 = t.val / 4 ∧ win0_0.index t 1 = 0 ∧ win0_0.index t 2 = t.val % 4 ∧ win0_0.index t 3 = 0) t

/-- The argument array, as the region finds it on core `c`. -/
abbrev X (c : Dev nD) : S32x3x512x512.Idx → EReal := m ((c.tc : Thread nD τ).loc main_arg0)

theorem iblk_apply (c : Dev nD) (t : Fin cfg0.N) (p : Fin 16) (k : Fin 3) (r : Fin 128) (q : Fin 512) (b : Fin 32)
    (r' : Fin 512) (hb : b.val = 16 * (t.val / 4) + p.val) (hr : r'.val = 128 * (t.val % 4) + r.val) :
    (iblk m c 0 t : Vec Ideal S16x3x128x512 .f32) (ix4 p k r q) = X m c (ix4 b k r' q) := by
  have hi := widx0 t
  unfold iblk
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 16 + 1 * p.val = b.val; rw [hi.1, hb]; omega
  | ⟨1, _⟩ => show win0_0.index t 1 * 3 + 1 * k.val = k.val; rw [hi.2.1]; omega
  | ⟨2, _⟩ => show win0_0.index t 2 * 128 + 1 * r.val = r'.val; rw [hi.2.2.1, hr]; omega
  | ⟨3, _⟩ => show win0_0.index t 3 * 512 + 1 * q.val = q.val; rw [hi.2.2.2]; omega

/-! ## Lower bounds of an image's rows -/

/-- `z` lies below every entry of image `b` of `Y` in the rows below `H`. -/
def Below (Y : S32x3x512x512.Idx → EReal) (z : EReal) (b H : ℕ) : Prop :=
  ∀ b' : Fin 32, b'.val = b → ∀ (k : Fin 3) (r q : Fin 512), r.val < H → z ≤ Y (ix4 b' k r q)

theorem below_zero (Y : S32x3x512x512.Idx → EReal) (z : EReal) (b : ℕ) : Below Y z b (128 * 0) :=
  fun _ _ _ r _ h => absurd h (by omega)

/-- Adding the 128 rows of tile `s`, which the block `x0` holds for its image `p`. -/
theorem below_step (Y : S32x3x512x512.Idx → EReal) (x0 : Vec Ideal S16x3x128x512 .f32) (z : EReal) (b s : ℕ) (p : Fin 16)
    (hs : s < 4) (hb : b < 32)
    (hx : ∀ (k : Fin 3) (r : Fin 128) (q : Fin 512) (b' : Fin 32) (r' : Fin 512), b'.val = b → r'.val = 128 * s + r.val →
      x0 (ix4 p k r q) = Y (ix4 b' k r' q)) :
    (Below Y z b (128 * s) ∧ ∀ (k : Fin 3) (r : Fin 128) (q : Fin 512), z ≤ x0 (ix4 p k r q)) ↔ Below Y z b (128 * (s + 1)) := by
  constructor
  · rintro ⟨H1, H2⟩ b' hb' k r q hr
    by_cases hlt : r.val < 128 * s
    · exact H1 b' hb' k r q hlt
    · rw [← hx k ⟨r.val - 128 * s, by omega⟩ q b' r hb' (by show r.val = 128 * s + (r.val - 128 * s); omega)]
      exact H2 _ _ _
  · intro H
    refine ⟨fun b' hb' k r q hr => H b' hb' k r q (by omega), fun k r q => ?_⟩
    have hr : 128 * s + r.val < 512 := by have := r.isLt; omega
    rw [hx k r q ⟨b, hb⟩ ⟨128 * s + r.val, hr⟩ rfl rfl]
    exact H ⟨b, hb⟩ rfl k _ q (by show 128 * s + r.val < 128 * (s + 1); have := r.isLt; omega)

/-! ## The invariant -/

/-- After grid point `n = 4 g + s` the scratch entry `(p, l)` is the minimum of image `16 g + p` over the rows below
    `128 (s + 1)`. -/
theorem inv (c : Dev nD) : ∀ (n : ℕ) (hn : n < cfg0.N) (p : Fin 16) (l : Fin 128) (z : EReal),
    z ≤ (outsAt0 m c n hn).2 (ix2 p l) ↔ z ≤ top ∧ Below (X m c) z (16 * (n / 4) + p.val) (128 * (n % 4 + 1)) := by
  intro n
  induction n with
  | zero =>
    intro hn p l z
    rw [outsAt0_A m c ⟨0, hn⟩ rfl (by show ¬ 0 % 4 = 3; omega)]
    dsimp only
    rw [sout_A, le_step, pay1_apply]
    have bs := below_step (X m c) (iblk m c 0 ⟨0, hn⟩) z (16 * (0 / 4) + p.val) 0 p (by omega) (by have := p.isLt; omega)
      (fun k r q b' r' hb' hr' => iblk_apply m c ⟨0, hn⟩ p k r q b' r' hb' hr')
    constructor
    · rintro ⟨hT, -, hC⟩; exact ⟨hT, bs.mp ⟨below_zero _ _ _, hC⟩⟩
    · rintro ⟨hT, hB⟩; exact ⟨hT, hT, (bs.mpr hB).2⟩
  | succ n ih =>
    intro hn p l z
    have hN : n + 1 < 8 := lt_of_lt_of_eq hn (show cfg0.N = 8 from N_0)
    have hp := p.isLt
    by_cases h0 : (n + 1) % 4 = 0
    · have h1 : ¬(n + 1) % 4 = 3 := by omega
      rw [outsAt0_A m c ⟨n + 1, hn⟩ h0 h1]
      dsimp only
      rw [sout_A, le_step, pay1_apply, h0]
      have bs := below_step (X m c) (iblk m c 0 ⟨n + 1, hn⟩) z (16 * ((n + 1) / 4) + p.val) 0 p (by omega) (by omega)
        (fun k r q b' r' hb' hr' => iblk_apply m c ⟨n + 1, hn⟩ p k r q b' r' hb' (by rw [hr']; show _ = 128 * ((n + 1) % 4) + r.val; rw [h0]))
      constructor
      · rintro ⟨hT, -, hC⟩; exact ⟨hT, bs.mp ⟨below_zero _ _ _, hC⟩⟩
      · rintro ⟨hT, hB⟩; exact ⟨hT, hT, (bs.mpr hB).2⟩
    · have ih' := ih (Nat.lt_of_succ_lt hn) p l z
      have e1 : n / 4 = (n + 1) / 4 := by omega
      have e2 : n % 4 + 1 = (n + 1) % 4 := by omega
      rw [e1, e2] at ih'
      have bs := below_step (X m c) (iblk m c 0 ⟨n + 1, hn⟩) z (16 * ((n + 1) / 4) + p.val) ((n + 1) % 4) p (by omega) (by omega)
        (fun k r q b' r' hb' hr' => iblk_apply m c ⟨n + 1, hn⟩ p k r q b' r' hb' hr')
      have fin : ∀ acc : Vec Ideal S16x128 .f32,
          (z ≤ acc (ix2 p l) ↔ z ≤ top ∧ Below (X m c) z (16 * ((n + 1) / 4) + p.val) (128 * ((n + 1) % 4))) →
          (z ≤ step (iblk m c 0 ⟨n + 1, hn⟩) acc (ix2 p l)
            ↔ z ≤ top ∧ Below (X m c) z (16 * ((n + 1) / 4) + p.val) (128 * ((n + 1) % 4 + 1))) := by
        intro acc hacc
        rw [le_step, hacc]
        constructor
        · rintro ⟨⟨hT, hB⟩, -, hC⟩; exact ⟨hT, bs.mp ⟨hB, hC⟩⟩
        · rintro ⟨hT, hB⟩; exact ⟨⟨hT, (bs.mpr hB).1⟩, hT, (bs.mpr hB).2⟩
      by_cases h1 : (n + 1) % 4 = 3
      · rw [outsAt0_C m c ⟨n + 1, hn⟩ h0 h1]
        dsimp only
        rw [sout_C]
        exact fin _ ih'
      · rw [outsAt0_B m c ⟨n + 1, hn⟩ h0 h1]
        dsimp only
        rw [sout_B]
        exact fin _ ih'

/-- At a last row tile the output block holds what the scratch holds. -/
theorem out_eq_scratch (c : Dev nD) (n : ℕ) (hn : n < cfg0.N) (h3 : n % 4 = 3) :
    (outsAt0 m c n hn).1 = (outsAt0 m c n hn).2 := by
  rw [outsAt0_C m c ⟨n, hn⟩ (by show ¬ n % 4 = 0; omega) h3]
  dsimp only
  rw [out_C, sout_C]

/-- So the output block written back after chunk `g` holds, at `(p, l)`, the minimum of image `16 g + p` over all rows. -/
theorem inv_out (c : Dev nD) (n : ℕ) (hn : n < cfg0.N) (h3 : n % 4 = 3) (p : Fin 16) (l : Fin 128) (z : EReal) :
    z ≤ (outsAt0 m c n hn).1 (ix2 p l) ↔ z ≤ top ∧ Below (X m c) z (16 * (n / 4) + p.val) 512 := by
  rw [out_eq_scratch m c n hn h3, inv m c n hn p l z, h3]

end Cert.KernelIdeal.KVal

end
-- ==== Proof.KernelArr.lean ====
/-
  The result array after the run. The output window writes its block back only after the last row tile of a
  chunk (grid points 3 and 7), to rows `16 g .. 16 g + 15` of the `[32, 128]` result array; the two blocks cover
  the array. Every written element has the lower-bound property of the invariant, so every element of the final
  array has it: entry `(b, l)` is the minimum of image `b` over channels, rows and columns.
-/
import proofs.«151754_j72593537237683_2_alg».proof.Proof.KernelAcc

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.DarkMin

variable (m : (ℓ : Loc nD τ sig) → Buf (Elt Ideal) ℓ)

/-- Block `(g, ·)` of the output window starts at row `16 g`, lane 0. -/
theorem widx1 (t : Fin cfg0.N) : win0_1.index t 0 = t.val / 4 ∧ win0_1.index t 1 = 0 :=
  (by decide +kernel : ∀ t : Fin grid0.N, win0_1.index t 0 = t.val / 4 ∧ win0_1.index t 1 = 0) t

/-- The property every element of the result array ends with: entry `i` is the minimum of image `i 0`. -/
def IsMinAt (c : Dev nD) (i : S32x128.Idx) (v : EReal) : Prop :=
  ∀ z : EReal, z ≤ v ↔ z ≤ top ∧ Below (X m c) z (i 0).val 512

theorem flushed_isMin (c : Dev nD) (t : Fin cfg0.N) (hf : (cfg0.win 1).flush t = true)
    (y : ((cfg0.win 1).xblock (cfg0.grid.coords t)).Idx) :
    IsMinAt m c (((cfg0.win 1).blk t).view.emb y)
      (_root_.cast (congrArg (Elt Ideal) ((cfg0.win 1).blk t).view.elt_eq.symm) ((dats m 0 c).flushed 1 t y)) := by
  have h3 : t.val % 4 = 3 := (flush0_1 t).mp hf
  have hi := widx1 t
  have hy0 : (y 0).val < 16 := lt_of_lt_of_le (y 0).isLt ((cfg0.win 1).xsize_le (cfg0.grid.coords t) 0)
  have hy1 : (y 1).val < 128 := lt_of_lt_of_le (y 1).isLt ((cfg0.win 1).xsize_le (cfg0.grid.coords t) 1)
  have e : (dats m 0 c).flushed 1 t y = (outsAt0 m c t.val t.isLt).1 (ix2 ⟨(y 0).val, hy0⟩ ⟨(y 1).val, hy1⟩) := by
    show (dats m 0 c).after 1 t _ = _
    rw [after0_1]
    exact congrArg _ (funext fun a => Fin.ext (by match a with | ⟨0, _⟩ => rfl | ⟨1, _⟩ => rfl))
  intro z
  show z ≤ (dats m 0 c).flushed 1 t y ↔ _
  rw [e, inv_out m c t.val t.isLt h3]
  have e0 : ((((cfg0.win 1).blk t).view.emb y) 0).val = 16 * (t.val / 4) + (y 0).val := by
    have h := (cfg0.win 1).rect_emb_val t y 0
    have h' : ((((cfg0.win 1).blk t).view.emb y) 0).val = win0_1.index t 0 * 16 + (y 0).val := h
    rw [h', hi.1]; omega
  rw [e0]

/-- The two written-back blocks cover the result array: rows below 16 by point 3, the others by point 7. -/
theorem cover1 (i : S32x128.Idx) : ∃ t : Fin cfg0.N, (cfg0.win 1).flush t = true ∧ i ∈ ((cfg0.win 1).blk t).view.set := by
  have h0 : (i 0 : Nat) < 32 := (i 0).isLt
  have h1 : (i 1 : Nat) < 128 := (i 1).isLt
  by_cases hlt : (i 0 : Nat) < 16
  · refine ⟨t0_3, (flush0_1 t0_3).mpr rfl, ?_⟩
    show i ∈ ((View.whole main_v0).slice (win0_1.rect t0_3)).set
    rw [View.set_slice_whole, Rect.mem_set_unit]
    intro a
    match a with
    | ⟨0, _⟩ =>
      show win0_1.index t0_3 0 * win0_1.size 0 ≤ (i 0 : Nat) ∧ (i 0 : Nat) < win0_1.index t0_3 0 * win0_1.size 0 + win0_1.xsize (grid0.coords t0_3) 0
      rw [show win0_1.index t0_3 0 * win0_1.size 0 = 0 from by decide +kernel, show win0_1.xsize (grid0.coords t0_3) 0 = 16 from by decide +kernel]; omega
    | ⟨1, _⟩ =>
      show win0_1.index t0_3 1 * win0_1.size 1 ≤ (i 1 : Nat) ∧ (i 1 : Nat) < win0_1.index t0_3 1 * win0_1.size 1 + win0_1.xsize (grid0.coords t0_3) 1
      rw [show win0_1.index t0_3 1 * win0_1.size 1 = 0 from by decide +kernel, show win0_1.xsize (grid0.coords t0_3) 1 = 128 from by decide +kernel]; omega
  · refine ⟨t0_7, (flush0_1 t0_7).mpr rfl, ?_⟩
    show i ∈ ((View.whole main_v0).slice (win0_1.rect t0_7)).set
    rw [View.set_slice_whole, Rect.mem_set_unit]
    intro a
    match a with
    | ⟨0, _⟩ =>
      show win0_1.index t0_7 0 * win0_1.size 0 ≤ (i 0 : Nat) ∧ (i 0 : Nat) < win0_1.index t0_7 0 * win0_1.size 0 + win0_1.xsize (grid0.coords t0_7) 0
      rw [show win0_1.index t0_7 0 * win0_1.size 0 = 16 from by decide +kernel, show win0_1.xsize (grid0.coords t0_7) 0 = 16 from by decide +kernel]; omega
    | ⟨1, _⟩ =>
      show win0_1.index t0_7 1 * win0_1.size 1 ≤ (i 1 : Nat) ∧ (i 1 : Nat) < win0_1.index t0_7 1 * win0_1.size 1 + win0_1.xsize (grid0.coords t0_7) 1
      rw [show win0_1.index t0_7 1 * win0_1.size 1 = 0 from by decide +kernel, show win0_1.xsize (grid0.coords t0_7) 1 = 128 from by decide +kernel]; omega

/-- Every element of the result array after the run is the minimum of its row's image. -/
theorem arr_isMin (c : Dev nD) (i : S32x128.Idx) : IsMinAt m c i ((dats m 0 c).arrAt 1 cfg0.N i) :=
  (dats m 0 c).arrAt_forall_of_cover 1 (IsMinAt m c) (flushed_isMin m c) cover1 i

end Cert.KernelIdeal.KVal

end
-- ==== Proof.KernelRun.lean ====
/-
  The kernel program's run, read as a value. After the region the host takes column 0 of the `[32, 128]` result
  array, reshapes it to a vector of 32 and averages it. Column 0 at row `b` is the minimum of image `b`
  (every element of the result array is), so the vector has the lower-bound property of the per-image minima,
  and the program's result is their mean.
-/
import proofs.«151754_j72593537237683_2_alg».proof.Proof.KernelArr
import Idealize.ShloMosaic.Lib.StableHlo.Run

set_option pp.maxSteps 20000
set_option pp.deepTerms false

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.DarkMin

variable (m : (ℓ : Loc nD τ sig) → Buf (Elt Ideal) ℓ) (ρ : Dev nD → PrngReg)

/-- The 32 numbers the host averages: column 0 of the result array, as a vector. -/
def kvec (c : Dev nD) : FVec Ideal S32 .f32 :=
  shapeCast S32 (extractStridedSlice S32x1 ![0, 0] ((dats m 0 c).arrAt 1 cfg0.N) slices_S32x128_S32x1_0_0) shapeCasts_S32x1_S32

theorem tail_eq (c : Dev nD) :
    Pipeline.afterTail₀ cfgs (dats m) 0 (V0 m) [hostOps1] c main_v4 = mean32 (kvec m c) reducesTo_S32_S_d0 h_S_ := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v0)
      = (dats m 0 c).arrAt 1 cfg0.N := Pipeline.withArrays_arr spec0 launch0.win.arr_inj c _ _ 1
  rw [hw]
  rfl

/-- Column 0 of the result array holds the per-image minima. -/
theorem kvec_isBatchMin (c : Dev nD) : IsBatchMin (X m c) (kvec m c) := by
  intro b z
  have e : kvec m c (ix1 b) = (dats m 0 c).arrAt 1 cfg0.N (ix2 b (0 : Fin 128)) := by
    unfold kvec
    refine (shapeCast_apply _ shapeCasts_S32x1_S32 (ix1 b) (ix2 b (0 : Fin 1)) ?_).trans ?_
    · rw [Shape.rowMajor_val_two, Shape.rowMajor_val_one]
      show b.val * 1 + 0 = b.val
      omega
    · refine extractStridedSlice_apply _ _ slices_S32x128_S32x1_0_0 (ix2 b (0 : Fin 1)) (ix2 b (0 : Fin 128)) fun a => ?_
      match a with
      | ⟨0, _⟩ => show b.val = 0 + b.val; omega
      | ⟨1, _⟩ => show 0 = 0 + 0; rfl
  rw [e, arr_isMin m c (ix2 b (0 : Fin 128)) z]
  refine and_congr Iff.rfl ⟨fun H k h w => H b rfl k h w h.isLt, fun H b' hb' k r q _ => ?_⟩
  obtain rfl : b' = b := Fin.ext hb'
  exact H k r q

/-- The run: the result is the mean of column 0 of the result array, and the argument is unchanged. -/
theorem run : θ_run (defs (F := Ideal)) (onTc (τ := τ) (main (F := Ideal))) ⟨m, fun _ => 0, ρ⟩ fun r => ∀ c : Dev nD,
      r.2.mem ((c.tc : Thread nD τ).loc main_v4) = mean32 (kvec m c) reducesTo_S32_S_d0 h_S_
      ∧ r.2.mem ((c.tc : Thread nD τ).loc main_arg0) = m ((c.tc : Thread nD τ).loc main_arg0) :=
  (θ_run defs _ _).mono (fun _ h c =>
    ⟨((h c).2 main_v4 (by decide)).trans (tail_eq m c),
      ((h c).1 0).trans (((dats m 0 c).arrAt_in 0 rfl _).trans ((A_eq m c 0).trans (V_main_arg0 m c)))⟩)
    (run_main m ρ)

end Cert.KernelIdeal.KVal

end
-- ==== Proof.RefRun.lean ====
/-
  The reference program's run, written out. Its @main is a straight line of host operations once the
  module-local functions are substituted at their calls: the scalar zero handed to the padding function, the
  padding function's sixteen operations (two mirrored bands above and below the rows, then two mirrored bands
  left and right of the columns: slices, reversals along one axis, two-operand concatenations), then three
  minimum reductions from the word of +inf (over channels, then rows, then columns), the sum of the 32 minima
  from the zero word and the division by the word of 32. Every buffer ends at the fold of these twenty-eight
  operations over the launch contents.
-/
import proofs.«151754_j72593537237683_2_alg».proof.ReferenceIdeal
import proofs.«151754_j72593537237683_2_alg».proof.Proof.Gen.ReferenceIdeal
import Idealize.ShloMosaic.Lib.StableHlo.Run
import Idealize.ShloMosaic.Lib.Tactic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls substituted: the scalar zero; the padding function's sixteen
    (each reversal is its own function's single operation, written into that call's buffer); @main's own eleven. -/
abbrev ops : List (HloOp τ sig (Elt F)) :=
  [ nullary main_c (constantI S_ 32 0#32),
    TRef.unary (.of main_arg0 : TRef sig ⟨S32x3x512x512, .f32⟩) main_call0.v0 (extractStridedSlice S32x3x1x512 ![0, 0, 0, 0] · slices_S32x3x512x512_S32x3x1x512_0_0_0_0),
    TRef.unary (.of main_arg0 : TRef sig ⟨S32x3x512x512, .f32⟩) main_call0.v1 (extractStridedSlice S32x3x7x512 ![0, 0, 1, 0] · slices_S32x3x512x512_S32x3x7x512_0_0_1_0),
    TRef.unary main_call0.v1 main_call0.call0.v0 (Host.reverse [2]),
    TRef.binary main_call0.call0.v0 (.of main_arg0 : TRef sig ⟨S32x3x512x512, .f32⟩) main_call0.v3 (fun a b => concatenate S32x3x519x512 2 [⟨S32x3x7x512, a⟩, ⟨S32x3x512x512, b⟩] concatenates_S32x3x7x512_S32x3x512x512_S32x3x519x512_d2),
    TRef.unary main_call0.v3 main_call0.v4 (extractStridedSlice S32x3x1x512 ![0, 0, 518, 0] · slices_S32x3x519x512_S32x3x1x512_0_0_518_0),
    TRef.unary main_call0.v3 main_call0.v5 (extractStridedSlice S32x3x7x512 ![0, 0, 511, 0] · slices_S32x3x519x512_S32x3x7x512_0_0_511_0),
    TRef.unary main_call0.v5 main_call0.call1.v0 (Host.reverse [2]),
    TRef.binary main_call0.v3 main_call0.call1.v0 main_call0.v7 (fun a b => concatenate S32x3x526x512 2 [⟨S32x3x519x512, a⟩, ⟨S32x3x7x512, b⟩] concatenates_S32x3x519x512_S32x3x7x512_S32x3x526x512_d2),
    TRef.unary main_call0.v7 main_call0.v8 (extractStridedSlice S32x3x526x1 ![0, 0, 0, 0] · slices_S32x3x526x512_S32x3x526x1_0_0_0_0),
    TRef.unary main_call0.v7 main_call0.v9 (extractStridedSlice S32x3x526x7 ![0, 0, 0, 1] · slices_S32x3x526x512_S32x3x526x7_0_0_0_1),
    TRef.unary main_call0.v9 main_call0.call2.v0 (Host.reverse [3]),
    TRef.binary main_call0.call2.v0 main_call0.v7 main_call0.v11 (fun a b => concatenate S32x3x526x519 3 [⟨S32x3x526x7, a⟩, ⟨S32x3x526x512, b⟩] concatenates_S32x3x526x7_S32x3x526x512_S32x3x526x519_d3),
    TRef.unary main_call0.v11 main_call0.v12 (extractStridedSlice S32x3x526x1 ![0, 0, 0, 518] · slices_S32x3x526x519_S32x3x526x1_0_0_0_518),
    TRef.unary main_call0.v11 main_call0.v13 (extractStridedSlice S32x3x526x7 ![0, 0, 0, 511] · slices_S32x3x526x519_S32x3x526x7_0_0_0_511),
    TRef.unary main_call0.v13 main_call0.call3.v0 (Host.reverse [3]),
    TRef.binary main_call0.v11 main_call0.call3.v0 main_call0.v15 (fun a b => concatenate S32x3x526x526 3 [⟨S32x3x526x519, a⟩, ⟨S32x3x526x7, b⟩] concatenates_S32x3x526x519_S32x3x526x7_S32x3x526x526_d3),
    nullary main_cst (constant S_ .f32 0x7F800000#32),
    binary main_v0 main_cst main_v1 ((fun x v => Host.reduce FloatOps.minimumf x v reducesTo_S32x3x526x526_S32x526x526_d1 h_S_) : (⟨S32x3x526x526, .f32⟩ : BufTy).Contents (Elt F) → (⟨S_, .f32⟩ : BufTy).Contents (Elt F) → (⟨S32x526x526, .f32⟩ : BufTy).Contents (Elt F)),
    nullary main_cst_0 (constant S_ .f32 0x7F800000#32),
    binary main_v1 main_cst_0 main_v2 ((fun x v => Host.reduce FloatOps.minimumf x v reducesTo_S32x526x526_S32x526_d1 h_S_) : (⟨S32x526x526, .f32⟩ : BufTy).Contents (Elt F) → (⟨S_, .f32⟩ : BufTy).Contents (Elt F) → (⟨S32x526, .f32⟩ : BufTy).Contents (Elt F)),
    nullary main_cst_1 (constant S_ .f32 0x7F800000#32),
    binary main_v2 main_cst_1 main_v3 ((fun x v => Host.reduce FloatOps.minimumf x v reducesTo_S32x526_S32_d1 h_S_) : (⟨S32x526, .f32⟩ : BufTy).Contents (Elt F) → (⟨S_, .f32⟩ : BufTy).Contents (Elt F) → (⟨S32, .f32⟩ : BufTy).Contents (Elt F)),
    nullary main_cst_2 (constant S_ .f32 0x00000000#32),
    binary main_v3 main_cst_2 main_v4 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_3 (constant S_ .f32 0x42000000#32),
    binary main_v4 main_cst_3 main_v5 (Host.divf : (⟨S_, .f32⟩ : BufTy).Contents (Elt F) → (⟨S_, .f32⟩ : BufTy).Contents (Elt F) → (⟨S_, .f32⟩ : BufTy).Contents (Elt F)) ]

set_option maxRecDepth 1024 in
/-- @main is that straight line: the functions' definitions unfolded at their calls and the record at its
    fields, both sides are one chain of host steps once sequencing is reassociated. -/
theorem main_eq (c : Dev nD) : main (F := F) c = seq ops := by
  simp only [main, fn_pad.body, fn_flip.body, fn_flip_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub .., unary_bufs_sub .., unary_bufs_sub .., unary_bufs_sub ..,
    binary_bufs_sub .., unary_bufs_sub .., unary_bufs_sub .., unary_bufs_sub .., binary_bufs_sub ..,
    nullary_bufs_sub .., binary_bufs_sub .., nullary_bufs_sub .., binary_bufs_sub .., nullary_bufs_sub .., binary_bufs_sub ..,
    nullary_bufs_sub .., binary_bufs_sub .., nullary_bufs_sub .., binary_bufs_sub ..⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefPad.lean ====
/-
  The reflect-padding of the reference, as a function of any array, and what it holds at each index.
  The rows are padded first: the seven rows 1..7 mirrored above, the seven rows 504..510 mirrored below
  (`padRows`: 512 rows become 526); then the columns the same way (`padCols`: 512 columns become 526).
  Each is a chain of slices, reversals along one axis and two-piece concatenations, every one of which reads,
  at each index, its operand at one index. Followed through the chain, entry `(b, c, p, q)` of the padded
  array is entry `(b, c, r p, r q)` of the original for the reflection `r : 526 → 512`,
  `r p = 7 - p` below 7, `p - 7` from 7 to 518, `1029 - p` from 519 on; and `r (h + 7) = h`: the padding
  invents no value and loses none.
-/
import proofs.«151754_j72593537237683_2_alg».proof.ReferenceIdeal
import proofs.«151754_j72593537237683_2_alg».proof.Proof.Gen.ReferenceIdeal
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

variable {α : Type}

/-- The rows padded: rows 1..7 mirrored above, rows 504..510 mirrored below (the padding function's operations
    on axis 2, in its order; the two single-row slices it also takes are read by nothing). -/
def padRows (x : S32x3x512x512.Idx → α) : S32x3x526x512.Idx → α :=
  let v1 := extractStridedSlice S32x3x7x512 ![0, 0, 1, 0] x slices_S32x3x512x512_S32x3x7x512_0_0_1_0
  let v2 := Host.reverse [2] v1
  let v3 := concatenate S32x3x519x512 2 [⟨S32x3x7x512, v2⟩, ⟨S32x3x512x512, x⟩] concatenates_S32x3x7x512_S32x3x512x512_S32x3x519x512_d2
  let v5 := extractStridedSlice S32x3x7x512 ![0, 0, 511, 0] v3 slices_S32x3x519x512_S32x3x7x512_0_0_511_0
  let v6 := Host.reverse [2] v5
  concatenate S32x3x526x512 2 [⟨S32x3x519x512, v3⟩, ⟨S32x3x7x512, v6⟩] concatenates_S32x3x519x512_S32x3x7x512_S32x3x526x512_d2

/-- The columns padded the same way (the padding function's operations on axis 3, in its order). -/
def padCols (v7 : S32x3x526x512.Idx → α) : S32x3x526x526.Idx → α :=
  let v9 := extractStridedSlice S32x3x526x7 ![0, 0, 0, 1] v7 slices_S32x3x526x512_S32x3x526x7_0_0_0_1
  let v10 := Host.reverse [3] v9
  let v11 := concatenate S32x3x526x519 3 [⟨S32x3x526x7, v10⟩, ⟨S32x3x526x512, v7⟩] concatenates_S32x3x526x7_S32x3x526x512_S32x3x526x519_d3
  let v13 := extractStridedSlice S32x3x526x7 ![0, 0, 0, 511] v11 slices_S32x3x526x519_S32x3x526x7_0_0_0_511
  let v14 := Host.reverse [3] v13
  concatenate S32x3x526x526 3 [⟨S32x3x526x519, v11⟩, ⟨S32x3x526x7, v14⟩] concatenates_S32x3x526x519_S32x3x526x7_S32x3x526x526_d3

/-- The reflect-padded array: rows, then columns. -/
def padded (x : FVec Ideal S32x3x512x512 .f32) : FVec Ideal S32x3x526x526 .f32 := padCols (padRows x)

/-- The per-image minimum the reference takes: over channels, then rows, then columns of the padded array,
    each from the word of +inf. -/
def refMin (x : FVec Ideal S32x3x512x512 .f32) : FVec Ideal S32 .f32 :=
  Host.reduce FloatOps.minimumf
    (Host.reduce FloatOps.minimumf
      (Host.reduce FloatOps.minimumf (padded x) (constant (F := Ideal) S_ .f32 0x7F800000#32)
        reducesTo_S32x3x526x526_S32x526x526_d1 h_S_)
      (constant (F := Ideal) S_ .f32 0x7F800000#32) reducesTo_S32x526x526_S32x526_d1 h_S_)
    (constant (F := Ideal) S_ .f32 0x7F800000#32) reducesTo_S32x526_S32_d1 h_S_

/-! ## The operations read at an index -/

/-- A reversal along one axis `d` read at `j` is the operand at the index `k` the caller names: `j` mirrored on
    `d`, kept on the other axes. -/
theorem reverse1_apply {s : Shape} (d : Fin s.rank) (x : s.Idx → α) (j k : s.Idx)
    (hd : (k d).val + (j d).val + 1 = s.size d) (ho : ∀ a : Fin s.rank, a.val ≠ d.val → (k a).val = (j a).val) :
    Host.reverse [d] x j = x k := by
  unfold Host.reverse
  congr 1
  funext a
  apply Fin.ext
  by_cases h : a = d
  · subst h
    rw [if_pos (List.mem_singleton.2 rfl), Fin.val_rev]
    omega
  · rw [if_neg (mt List.mem_singleton.1 h)]
    exact (ho a fun e => h (Fin.ext e)).symm

/-! ### The rows -/

/-- Rows 1..7. -/
theorem rowsA_apply (x : S32x3x512x512.Idx → α) (b : Fin 32) (c : Fin 3) (p : Fin 7) (q : Fin 512) :
    extractStridedSlice S32x3x7x512 ![0, 0, 1, 0] x slices_S32x3x512x512_S32x3x7x512_0_0_1_0 (ix4 b c p q)
      = x (ix4 b c ⟨p.val + 1, by omega⟩ q) :=
  extractStridedSlice_apply _ x _ _ _ fun a => match a with
    | ⟨0, _⟩ => by show b.val = 0 + b.val; omega
    | ⟨1, _⟩ => by show c.val = 0 + c.val; omega
    | ⟨2, _⟩ => by show p.val + 1 = 1 + p.val; omega
    | ⟨3, _⟩ => by show q.val = 0 + q.val; omega

/-- A band of seven rows mirrored. -/
theorem rev7rows_apply (y : S32x3x7x512.Idx → α) (b : Fin 32) (c : Fin 3) (p : Fin 7) (q : Fin 512) :
    Host.reverse [2] y (ix4 b c p q) = y (ix4 b c ⟨6 - p.val, by omega⟩ q) :=
  reverse1_apply _ y _ _ (by show 6 - p.val + p.val + 1 = 7; omega) fun a => match a with
    | ⟨0, _⟩ => fun _ => rfl
    | ⟨1, _⟩ => fun _ => rfl
    | ⟨2, _⟩ => fun h => absurd rfl h
    | ⟨3, _⟩ => fun _ => rfl

/-- The band above: the first seven rows of the 519. -/
theorem cat3L_apply (y₁ : S32x3x7x512.Idx → α) (y₂ : S32x3x512x512.Idx → α) (b : Fin 32) (c : Fin 3) (p : Fin 519)
    (q : Fin 512) (hp : p.val < 7) :
    concatenate S32x3x519x512 2 [⟨S32x3x7x512, y₁⟩, ⟨S32x3x512x512, y₂⟩]
        concatenates_S32x3x7x512_S32x3x512x512_S32x3x519x512_d2 (ix4 b c p q)
      = y₁ (ix4 b c ⟨p.val, hp⟩ q) :=
  concatenate_pair_apply_left 2 y₁ y₂ _ (ix4 b c p q) rfl (ix4 b c ⟨p.val, hp⟩ q) fun a => match a with
    | ⟨0, _⟩ => rfl
    | ⟨1, _⟩ => rfl
    | ⟨2, _⟩ => rfl
    | ⟨3, _⟩ => rfl

/-- Below the band: the original rows, seven further down. -/
theorem cat3R_apply (y₁ : S32x3x7x512.Idx → α) (y₂ : S32x3x512x512.Idx → α) (b : Fin 32) (c : Fin 3) (p : Fin 519)
    (q : Fin 512) (hp : 7 ≤ p.val) :
    concatenate S32x3x519x512 2 [⟨S32x3x7x512, y₁⟩, ⟨S32x3x512x512, y₂⟩]
        concatenates_S32x3x7x512_S32x3x512x512_S32x3x519x512_d2 (ix4 b c p q)
      = y₂ (ix4 b c ⟨p.val - 7, by omega⟩ q) :=
  concatenate_pair_apply_right 2 y₁ y₂ _ (ix4 b c p q) rfl rfl (ix4 b c ⟨p.val - 7, by omega⟩ q)
    (fun a => match a with
      | ⟨0, _⟩ => fun _ => rfl
      | ⟨1, _⟩ => fun _ => rfl
      | ⟨2, _⟩ => fun h => absurd rfl h
      | ⟨3, _⟩ => fun _ => rfl)
    (by show p.val - 7 + 7 = p.val; omega)

/-- Rows 511..517 of the 519. -/
theorem rowsB_apply (y : S32x3x519x512.Idx → α) (b : Fin 32) (c : Fin 3) (p : Fin 7) (q : Fin 512) :
    extractStridedSlice S32x3x7x512 ![0, 0, 511, 0] y slices_S32x3x519x512_S32x3x7x512_0_0_511_0 (ix4 b c p q)
      = y (ix4 b c ⟨p.val + 511, by omega⟩ q) :=
  extractStridedSlice_apply _ y _ _ _ fun a => match a with
    | ⟨0, _⟩ => by show b.val = 0 + b.val; omega
    | ⟨1, _⟩ => by show c.val = 0 + c.val; omega
    | ⟨2, _⟩ => by show p.val + 511 = 511 + p.val; omega
    | ⟨3, _⟩ => by show q.val = 0 + q.val; omega

/-- The first 519 rows of the 526. -/
theorem cat7L_apply (y₁ : S32x3x519x512.Idx → α) (y₂ : S32x3x7x512.Idx → α) (b : Fin 32) (c : Fin 3) (p : Fin 526)
    (q : Fin 512) (hp : p.val < 519) :
    concatenate S32x3x526x512 2 [⟨S32x3x519x512, y₁⟩, ⟨S32x3x7x512, y₂⟩]
        concatenates_S32x3x519x512_S32x3x7x512_S32x3x526x512_d2 (ix4 b c p q)
      = y₁ (ix4 b c ⟨p.val, hp⟩ q) :=
  concatenate_pair_apply_left 2 y₁ y₂ _ (ix4 b c p q) rfl (ix4 b c ⟨p.val, hp⟩ q) fun a => match a with
    | ⟨0, _⟩ => rfl
    | ⟨1, _⟩ => rfl
    | ⟨2, _⟩ => rfl
    | ⟨3, _⟩ => rfl

/-- The band below: the last seven rows of the 526. -/
theorem cat7R_apply (y₁ : S32x3x519x512.Idx → α) (y₂ : S32x3x7x512.Idx → α) (b : Fin 32) (c : Fin 3) (p : Fin 526)
    (q : Fin 512) (hp : 519 ≤ p.val) :
    concatenate S32x3x526x512 2 [⟨S32x3x519x512, y₁⟩, ⟨S32x3x7x512, y₂⟩]
        concatenates_S32x3x519x512_S32x3x7x512_S32x3x526x512_d2 (ix4 b c p q)
      = y₂ (ix4 b c ⟨p.val - 519, by omega⟩ q) :=
  concatenate_pair_apply_right 2 y₁ y₂ _ (ix4 b c p q) rfl rfl (ix4 b c ⟨p.val - 519, by omega⟩ q)
    (fun a => match a with
      | ⟨0, _⟩ => fun _ => rfl
      | ⟨1, _⟩ => fun _ => rfl
      | ⟨2, _⟩ => fun h => absurd rfl h
      | ⟨3, _⟩ => fun _ => rfl)
    (by show p.val - 519 + 519 = p.val; omega)

/-- The reflection of a padded coordinate into the original range: `7 - p` in the first band, `p - 7` in the
    middle, `1029 - p` in the last band. -/
def reflIdx (p : Fin 526) : Fin 512 :=
  ⟨if p.val < 7 then 7 - p.val else if p.val < 519 then p.val - 7 else 1029 - p.val, by
    have := p.isLt; split_ifs <;> omega⟩

theorem reflIdx_val (p : Fin 526) :
    (reflIdx p).val = if p.val < 7 then 7 - p.val else if p.val < 519 then p.val - 7 else 1029 - p.val := rfl

/-- Every original coordinate is the reflection of the padded coordinate seven further on. -/
theorem reflIdx_add7 (h : Fin 512) : reflIdx ⟨h.val + 7, by omega⟩ = h := by
  apply Fin.ext
  rw [reflIdx_val]
  show (if h.val + 7 < 7 then _ else if h.val + 7 < 519 then h.val + 7 - 7 else _) = h.val
  have := h.isLt
  rw [if_neg (by omega), if_pos (by omega)]
  omega

/-- THE ROWS PADDED, at an index: the original at the reflected row. -/
theorem padRows_apply (x : S32x3x512x512.Idx → α) (b : Fin 32) (c : Fin 3) (p : Fin 526) (q : Fin 512) :
    padRows x (ix4 b c p q) = x (ix4 b c (reflIdx p) q) := by
  have hp := p.isLt
  by_cases h1 : p.val < 519
  · refine (cat7L_apply _ _ b c p q h1).trans ?_
    by_cases h2 : p.val < 7
    · refine (cat3L_apply _ _ b c ⟨p.val, h1⟩ q h2).trans ?_
      refine (rev7rows_apply _ b c ⟨p.val, h2⟩ q).trans ?_
      refine (rowsA_apply x b c ⟨6 - p.val, by omega⟩ q).trans ?_
      refine congrArg (fun r => x (ix4 b c r q)) (Fin.ext ?_)
      rw [reflIdx_val, if_pos h2]
      show 6 - p.val + 1 = 7 - p.val
      omega
    · refine (cat3R_apply _ _ b c ⟨p.val, h1⟩ q (by show 7 ≤ p.val; omega)).trans ?_
      refine congrArg (fun r => x (ix4 b c r q)) (Fin.ext ?_)
      rw [reflIdx_val, if_neg h2, if_pos h1]
  · refine (cat7R_apply _ _ b c p q (by omega)).trans ?_
    refine (rev7rows_apply _ b c ⟨p.val - 519, by omega⟩ q).trans ?_
    refine (rowsB_apply _ b c ⟨6 - (p.val - 519), by omega⟩ q).trans ?_
    refine (cat3R_apply _ _ b c ⟨6 - (p.val - 519) + 511, by omega⟩ q (by show 7 ≤ 6 - (p.val - 519) + 511; omega)).trans ?_
    refine congrArg (fun r => x (ix4 b c r q)) (Fin.ext ?_)
    rw [reflIdx_val, if_neg (by omega), if_neg h1]
    show 6 - (p.val - 519) + 511 - 7 = 1029 - p.val
    omega

/-! ### The columns -/

/-- Columns 1..7. -/
theorem colsA_apply (y : S32x3x526x512.Idx → α) (b : Fin 32) (c : Fin 3) (p : Fin 526) (q : Fin 7) :
    extractStridedSlice S32x3x526x7 ![0, 0, 0, 1] y slices_S32x3x526x512_S32x3x526x7_0_0_0_1 (ix4 b c p q)
      = y (ix4 b c p ⟨q.val + 1, by omega⟩) :=
  extractStridedSlice_apply _ y _ _ _ fun a => match a with
    | ⟨0, _⟩ => by show b.val = 0 + b.val; omega
    | ⟨1, _⟩ => by show c.val = 0 + c.val; omega
    | ⟨2, _⟩ => by show p.val = 0 + p.val; omega
    | ⟨3, _⟩ => by show q.val + 1 = 1 + q.val; omega

/-- A band of seven columns mirrored. -/
theorem rev7cols_apply (y : S32x3x526x7.Idx → α) (b : Fin 32) (c : Fin 3) (p : Fin 526) (q : Fin 7) :
    Host.reverse [3] y (ix4 b c p q) = y (ix4 b c p ⟨6 - q.val, by omega⟩) :=
  reverse1_apply _ y _ _ (by show 6 - q.val + q.val + 1 = 7; omega) fun a => match a with
    | ⟨0, _⟩ => fun _ => rfl
    | ⟨1, _⟩ => fun _ => rfl
    | ⟨2, _⟩ => fun _ => rfl
    | ⟨3, _⟩ => fun h => absurd rfl h

/-- The band on the left: the first seven columns of the 519. -/
theorem cat11L_apply (y₁ : S32x3x526x7.Idx → α) (y₂ : S32x3x526x512.Idx → α) (b : Fin 32) (c : Fin 3) (p : Fin 526)
    (q : Fin 519) (hq : q.val < 7) :
    concatenate S32x3x526x519 3 [⟨S32x3x526x7, y₁⟩, ⟨S32x3x526x512, y₂⟩]
        concatenates_S32x3x526x7_S32x3x526x512_S32x3x526x519_d3 (ix4 b c p q)
      = y₁ (ix4 b c p ⟨q.val, hq⟩) :=
  concatenate_pair_apply_left 3 y₁ y₂ _ (ix4 b c p q) rfl (ix4 b c p ⟨q.val, hq⟩) fun a => match a with
    | ⟨0, _⟩ => rfl
    | ⟨1, _⟩ => rfl
    | ⟨2, _⟩ => rfl
    | ⟨3, _⟩ => rfl

/-- Right of the band: the columns as they were, seven further on. -/
theorem cat11R_apply (y₁ : S32x3x526x7.Idx → α) (y₂ : S32x3x526x512.Idx → α) (b : Fin 32) (c : Fin 3) (p : Fin 526)
    (q : Fin 519) (hq : 7 ≤ q.val) :
    concatenate S32x3x526x519 3 [⟨S32x3x526x7, y₁⟩, ⟨S32x3x526x512, y₂⟩]
        concatenates_S32x3x526x7_S32x3x526x512_S32x3x526x519_d3 (ix4 b c p q)
      = y₂ (ix4 b c p ⟨q.val - 7, by omega⟩) :=
  concatenate_pair_apply_right 3 y₁ y₂ _ (ix4 b c p q) rfl rfl (ix4 b c p ⟨q.val - 7, by omega⟩)
    (fun a => match a with
      | ⟨0, _⟩ => fun _ => rfl
      | ⟨1, _⟩ => fun _ => rfl
      | ⟨2, _⟩ => fun _ => rfl
      | ⟨3, _⟩ => fun h => absurd rfl h)
    (by show q.val - 7 + 7 = q.val; omega)

/-- Columns 511..517 of the 519. -/
theorem colsB_apply (y : S32x3x526x519.Idx → α) (b : Fin 32) (c : Fin 3) (p : Fin 526) (q : Fin 7) :
    extractStridedSlice S32x3x526x7 ![0, 0, 0, 511] y slices_S32x3x526x519_S32x3x526x7_0_0_0_511 (ix4 b c p q)
      = y (ix4 b c p ⟨q.val + 511, by omega⟩) :=
  extractStridedSlice_apply _ y _ _ _ fun a => match a with
    | ⟨0, _⟩ => by show b.val = 0 + b.val; omega
    | ⟨1, _⟩ => by show c.val = 0 + c.val; omega
    | ⟨2, _⟩ => by show p.val = 0 + p.val; omega
    | ⟨3, _⟩ => by show q.val + 511 = 511 + q.val; omega

/-- The first 519 columns of the 526. -/
theorem cat15L_apply (y₁ : S32x3x526x519.Idx → α) (y₂ : S32x3x526x7.Idx → α) (b : Fin 32) (c : Fin 3) (p : Fin 526)
    (q : Fin 526) (hq : q.val < 519) :
    concatenate S32x3x526x526 3 [⟨S32x3x526x519, y₁⟩, ⟨S32x3x526x7, y₂⟩]
        concatenates_S32x3x526x519_S32x3x526x7_S32x3x526x526_d3 (ix4 b c p q)
      = y₁ (ix4 b c p ⟨q.val, hq⟩) :=
  concatenate_pair_apply_left 3 y₁ y₂ _ (ix4 b c p q) rfl (ix4 b c p ⟨q.val, hq⟩) fun a => match a with
    | ⟨0, _⟩ => rfl
    | ⟨1, _⟩ => rfl
    | ⟨2, _⟩ => rfl
    | ⟨3, _⟩ => rfl

/-- The band on the right: the last seven columns of the 526. -/
theorem cat15R_apply (y₁ : S32x3x526x519.Idx → α) (y₂ : S32x3x526x7.Idx → α) (b : Fin 32) (c : Fin 3) (p : Fin 526)
    (q : Fin 526) (hq : 519 ≤ q.val) :
    concatenate S32x3x526x526 3 [⟨S32x3x526x519, y₁⟩, ⟨S32x3x526x7, y₂⟩]
        concatenates_S32x3x526x519_S32x3x526x7_S32x3x526x526_d3 (ix4 b c p q)
      = y₂ (ix4 b c p ⟨q.val - 519, by omega⟩) :=
  concatenate_pair_apply_right 3 y₁ y₂ _ (ix4 b c p q) rfl rfl (ix4 b c p ⟨q.val - 519, by omega⟩)
    (fun a => match a with
      | ⟨0, _⟩ => fun _ => rfl
      | ⟨1, _⟩ => fun _ => rfl
      | ⟨2, _⟩ => fun _ => rfl
      | ⟨3, _⟩ => fun h => absurd rfl h)
    (by show q.val - 519 + 519 = q.val; omega)

/-- THE COLUMNS PADDED, at an index: the operand at the reflected column. -/
theorem padCols_apply (y : S32x3x526x512.Idx → α) (b : Fin 32) (c : Fin 3) (p q : Fin 526) :
    padCols y (ix4 b c p q) = y (ix4 b c p (reflIdx q)) := by
  have hq := q.isLt
  by_cases h1 : q.val < 519
  · refine (cat15L_apply _ _ b c p q h1).trans ?_
    by_cases h2 : q.val < 7
    · refine (cat11L_apply _ _ b c p ⟨q.val, h1⟩ h2).trans ?_
      refine (rev7cols_apply _ b c p ⟨q.val, h2⟩).trans ?_
      refine (colsA_apply y b c p ⟨6 - q.val, by omega⟩).trans ?_
      refine congrArg (fun r => y (ix4 b c p r)) (Fin.ext ?_)
      rw [reflIdx_val, if_pos h2]
      show 6 - q.val + 1 = 7 - q.val
      omega
    · refine (cat11R_apply _ _ b c p ⟨q.val, h1⟩ (by show 7 ≤ q.val; omega)).trans ?_
      refine congrArg (fun r => y (ix4 b c p r)) (Fin.ext ?_)
      rw [reflIdx_val, if_neg h2, if_pos h1]
  · refine (cat15R_apply _ _ b c p q (by omega)).trans ?_
    refine (rev7cols_apply _ b c p ⟨q.val - 519, by omega⟩).trans ?_
    refine (colsB_apply _ b c p ⟨6 - (q.val - 519), by omega⟩).trans ?_
    refine (cat11R_apply _ _ b c p ⟨6 - (q.val - 519) + 511, by omega⟩ (by show 7 ≤ 6 - (q.val - 519) + 511; omega)).trans ?_
    refine congrArg (fun r => y (ix4 b c p r)) (Fin.ext ?_)
    rw [reflIdx_val, if_neg (by omega), if_neg h1]
    show 6 - (q.val - 519) + 511 - 7 = 1029 - q.val
    omega

/-- THE PADDED ARRAY at an index: the original at the reflected row and column. -/
theorem padded_apply (x : FVec Ideal S32x3x512x512 .f32) (b : Fin 32) (c : Fin 3) (p q : Fin 526) :
    padded x (ix4 b c p q) = x (ix4 b c (reflIdx p) (reflIdx q)) :=
  (padCols_apply (padRows x) b c p q).trans (padRows_apply x b c p (reflIdx q))

end Cert.ReferenceIdeal.RefValue

end
-- ==== Proof.RefValue.lean ====
/-
  The reference's result as a value. Its run (the straight line of host operations) leaves, at the result buffer,
  the mean of the 32 per-image minima `refMin` of the argument's contents, and leaves the argument as it was
  (`run`). Those minima are the batch's own (`refMin_isBatchMin`): each of the three reductions is read by its
  lower bounds, which are those of the starting value and of the operand along the dropped axis; and the padded
  array holds, at every index, an entry of the same image and channel of the original, every entry of which
  occurs in it — so the lower bounds over the padded image are the lower bounds over the image.
-/
import proofs.«151754_j72593537237683_2_alg».proof.Proof.RefRun
import proofs.«151754_j72593537237683_2_alg».proof.Proof.RefPad
import proofs.«151754_j72593537237683_2_alg».proof.Proof.Spec
import proofs.«151754_j72593537237683_2_alg».proof.Proof.LibMinBounds
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

attribute [local irreducible] Host.reduce Host.reduceAdd Host.reverse concatenate extractStridedSlice in
set_option maxRecDepth 8192 in
/-- The fold of the operations at the result buffer is the mean of the per-image minima of the argument's
    contents: each operation's result is rewritten at its own buffer to its function's value and at any other
    buffer to what was there, until the composed term of the argument's contents is left; the reductions,
    reversals, concatenations and slices are never opened. -/
theorem out_eq (V : Valuation τ sig (Elt Ideal)) :
    after (ops (F := Ideal)) V (main_v5 : DevRef τ sig)
      = Cert.DarkMin.mean32 (refMin (V (main_arg0 : DevRef τ sig))) reducesTo_S32_S_d0 h_S_ := by
  simp (disch := decide) only [after_cons, after_nil, TRef.unary, TRef.binary, TRef.of,
      nullary_result', unary_result', binary_result', nullary_result_ne', unary_result_ne', binary_result_ne']
  repeat (first
    | rw [nullary_result] | rw [unary_result] | rw [binary_result]
    | (rw [nullary_result_ne]; rotate_left; decide)
    | (rw [unary_result_ne]; rotate_left; decide)
    | (rw [binary_result_ne]; rotate_left; decide))
  rfl

theorem arg0_eq (V : Valuation τ sig (Elt Ideal)) :
    after (ops (F := Ideal)) V (main_arg0 : DevRef τ sig) = V (main_arg0 : DevRef τ sig) := by
  simp only [after_cons, after_nil]
  rfl

/-- On every device, from any memory with zero counters: every weakly fair execution of @main terminates with the
    result buffer at the mean of the per-image minima of the argument's contents, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
          = Cert.DarkMin.mean32 (refMin (m ((c.tc : Thread nD τ).loc main_arg0))) reducesTo_S32_S_d0 h_S_
      ∧ r.2.mem ((c.tc : Thread nD τ).loc main_arg0) = m ((c.tc : Thread nD τ).loc main_arg0) :=
  (θ_run defs _ _).mono (fun _ h c => ⟨(h c main_v5).trans (out_eq (launchContents m c)), (h c main_arg0).trans (arg0_eq (launchContents m c))⟩)
    (run_main m ρ)

/-! ## The per-image minimum, by its lower bounds

Each of the three reductions drops axis 1 of its operand. The indices that drop to a given index are that index
with every coordinate inserted at axis 1, so a lower bound of a reduced entry is a lower bound of the starting
value and of the operand along that axis. -/

/-- Dropping the channel of `(b, c, p, q)` leaves `(b, p, q)`; -/
theorem drop4 (b : Fin 32) (c : Fin 3) (p q : Fin 526) :
    reducesTo_S32x3x526x526_S32x526x526_d1.drop (ix4 b c p q) = ix3 b p q := by
  funext a
  match a with
  | ⟨0, _⟩ => rfl
  | ⟨1, _⟩ => rfl
  | ⟨2, _⟩ => rfl

/-- and an index that drops to `(b, p, q)` is `(b, c, p, q)` for its own channel `c`. -/
theorem eq4_of_drop (i : S32x3x526x526.Idx) (b : Fin 32) (p q : Fin 526)
    (h : reducesTo_S32x3x526x526_S32x526x526_d1.drop i = ix3 b p q) : ∃ c : Fin 3, i = ix4 b c p q :=
  ⟨i 1, by
    funext a
    match a with
    | ⟨0, _⟩ => exact congrFun h ⟨0, by decide⟩
    | ⟨1, _⟩ => rfl
    | ⟨2, _⟩ => exact congrFun h ⟨1, by decide⟩
    | ⟨3, _⟩ => exact congrFun h ⟨2, by decide⟩⟩

theorem forall_drop4 (P : S32x3x526x526.Idx → Prop) (b : Fin 32) (p q : Fin 526) :
    (∀ i, reducesTo_S32x3x526x526_S32x526x526_d1.drop i = ix3 b p q → P i) ↔ ∀ c : Fin 3, P (ix4 b c p q) :=
  ⟨fun H c => H _ (drop4 b c p q), fun H i hi => by obtain ⟨c, rfl⟩ := eq4_of_drop i b p q hi; exact H c⟩

/-- Dropping the row of `(b, p, q)` leaves `(b, q)`; -/
theorem drop3 (b : Fin 32) (p q : Fin 526) :
    reducesTo_S32x526x526_S32x526_d1.drop (ix3 b p q) = ix2 b q := by
  funext a
  match a with
  | ⟨0, _⟩ => rfl
  | ⟨1, _⟩ => rfl

/-- and an index that drops to `(b, q)` is `(b, p, q)` for its own row `p`. -/
theorem eq3_of_drop (i : S32x526x526.Idx) (b : Fin 32) (q : Fin 526)
    (h : reducesTo_S32x526x526_S32x526_d1.drop i = ix2 b q) : ∃ p : Fin 526, i = ix3 b p q :=
  ⟨i 1, by
    funext a
    match a with
    | ⟨0, _⟩ => exact congrFun h ⟨0, by decide⟩
    | ⟨1, _⟩ => rfl
    | ⟨2, _⟩ => exact congrFun h ⟨1, by decide⟩⟩

theorem forall_drop3 (P : S32x526x526.Idx → Prop) (b : Fin 32) (q : Fin 526) :
    (∀ i, reducesTo_S32x526x526_S32x526_d1.drop i = ix2 b q → P i) ↔ ∀ p : Fin 526, P (ix3 b p q) :=
  ⟨fun H p => H _ (drop3 b p q), fun H i hi => by obtain ⟨p, rfl⟩ := eq3_of_drop i b q hi; exact H p⟩

/-- Dropping the column of `(b, q)` leaves `b`; -/
theorem drop2 (b : Fin 32) (q : Fin 526) : reducesTo_S32x526_S32_d1.drop (ix2 b q) = ix1 b := by
  funext a
  match a with
  | ⟨0, _⟩ => rfl

/-- and an index that drops to `b` is `(b, q)` for its own column `q`. -/
theorem eq2_of_drop (i : S32x526.Idx) (b : Fin 32) (h : reducesTo_S32x526_S32_d1.drop i = ix1 b) :
    ∃ q : Fin 526, i = ix2 b q :=
  ⟨i 1, by
    funext a
    match a with
    | ⟨0, _⟩ => exact congrFun h ⟨0, by decide⟩
    | ⟨1, _⟩ => rfl⟩

theorem forall_drop2 (P : S32x526.Idx → Prop) (b : Fin 32) :
    (∀ i, reducesTo_S32x526_S32_d1.drop i = ix1 b → P i) ↔ ∀ q : Fin 526, P (ix2 b q) :=
  ⟨fun H q => H _ (drop2 b q), fun H i hi => by obtain ⟨q, rfl⟩ := eq2_of_drop i b hi; exact H q⟩

/-- The minimum over channels, at `(b, p, q)`, by its lower bounds. -/
theorem le_minChannels (y : FVec Ideal S32x3x526x526 .f32) (b : Fin 32) (p q : Fin 526) (z : EReal) :
    z ≤ Host.reduce (FloatOps.minimumf (F := Ideal) (φ := .f32)) y (constant (F := Ideal) S_ .f32 0x7F800000#32)
          reducesTo_S32x3x526x526_S32x526x526_d1 h_S_ (ix3 b p q)
      ↔ z ≤ Cert.DarkMin.top ∧ ∀ c : Fin 3, z ≤ y (ix4 b c p q) :=
  (Cert.LibMinBounds.le_hostReduce_min y _ reducesTo_S32x3x526x526_S32x526x526_d1 h_S_ (ix3 b p q) z).trans
    (and_congr Iff.rfl (forall_drop4 (fun i => z ≤ y i) b p q))

/-- The minimum over rows, at `(b, q)`, by its lower bounds. -/
theorem le_minRows (y : FVec Ideal S32x526x526 .f32) (b : Fin 32) (q : Fin 526) (z : EReal) :
    z ≤ Host.reduce (FloatOps.minimumf (F := Ideal) (φ := .f32)) y (constant (F := Ideal) S_ .f32 0x7F800000#32)
          reducesTo_S32x526x526_S32x526_d1 h_S_ (ix2 b q)
      ↔ z ≤ Cert.DarkMin.top ∧ ∀ p : Fin 526, z ≤ y (ix3 b p q) :=
  (Cert.LibMinBounds.le_hostReduce_min y _ reducesTo_S32x526x526_S32x526_d1 h_S_ (ix2 b q) z).trans
    (and_congr Iff.rfl (forall_drop3 (fun i => z ≤ y i) b q))

/-- The minimum over columns, at `b`, by its lower bounds. -/
theorem le_minCols (y : FVec Ideal S32x526 .f32) (b : Fin 32) (z : EReal) :
    z ≤ Host.reduce (FloatOps.minimumf (F := Ideal) (φ := .f32)) y (constant (F := Ideal) S_ .f32 0x7F800000#32)
          reducesTo_S32x526_S32_d1 h_S_ (ix1 b)
      ↔ z ≤ Cert.DarkMin.top ∧ ∀ q : Fin 526, z ≤ y (ix2 b q) :=
  (Cert.LibMinBounds.le_hostReduce_min y _ reducesTo_S32x526_S32_d1 h_S_ (ix1 b) z).trans
    (and_congr Iff.rfl (forall_drop2 (fun i => z ≤ y i) b))

/-- The three reductions together: a lower bound of the reference's minimum of image `b` is a lower bound of the
    starting value and of every entry of the padded image. -/
theorem le_refMin (x : FVec Ideal S32x3x512x512 .f32) (b : Fin 32) (z : EReal) :
    z ≤ refMin x (ix1 b) ↔ z ≤ Cert.DarkMin.top ∧ ∀ (c : Fin 3) (p q : Fin 526), z ≤ padded x (ix4 b c p q) := by
  unfold refMin
  refine (le_minCols _ b z).trans ⟨?_, ?_⟩
  · rintro ⟨ht, H⟩
    exact ⟨ht, fun c p q => ((le_minChannels _ b p q z).mp (((le_minRows _ b q z).mp (H q)).2 p)).2 c⟩
  · rintro ⟨ht, H⟩
    exact ⟨ht, fun q => (le_minRows _ b q z).mpr ⟨ht, fun p => (le_minChannels _ b p q z).mpr ⟨ht, fun c => H c p q⟩⟩⟩

/-- THE REFERENCE'S PER-IMAGE MINIMA ARE THE BATCH'S: every padded entry is an entry of the same image and channel
    (the reflected one), and every entry of the image is a padded entry (seven rows and columns further on). -/
theorem refMin_isBatchMin (x : FVec Ideal S32x3x512x512 .f32) : Cert.DarkMin.IsBatchMin x (refMin x) := by
  unfold Cert.DarkMin.IsBatchMin
  intro b z
  refine (le_refMin x b z).trans ⟨?_, ?_⟩
  · rintro ⟨ht, H⟩
    refine ⟨ht, fun c h w => ?_⟩
    have hh := H c ⟨h.val + 7, by omega⟩ ⟨w.val + 7, by omega⟩
    rw [padded_apply, reflIdx_add7, reflIdx_add7] at hh
    exact hh
  · rintro ⟨ht, H⟩
    refine ⟨ht, fun c p q => ?_⟩
    rw [padded_apply]
    exact H c (reflIdx p) (reflIdx q)

end Cert.ReferenceIdeal.RefValue

end
-- ==== Proof.lean ====
/-
  The dark-channel prior of an image batch, two ways. For `x : [32, 3, 512, 512]` the reference reflect-pads the
  rows and columns by 7, takes the minimum over channels, then rows, then columns of the padded array, and
  averages the 32 per-image minima. The kernel never pads: it walks the batch in chunks of 16 images and tiles
  of 128 rows, keeps a running minimum per image in a scratch buffer, writes it out after the last tile, and the
  host averages column 0 of the result.

  Over the extended reals both are the mean of the same 32 numbers. A reflected copy of a pixel is a pixel of
  the same image and channel, and every pixel occurs in the padded array (at its own place shifted by 7), so
  the padded array and the unpadded one have the same lower bounds per image; and a minimum — whatever its
  order, grouping, tiling or starting word, as long as both sides start from the same word — is determined by
  its lower bounds (Spec.lean). No finiteness of the inputs is used: minima need only the linear order.

  Kernel side: KernelPieces (what each control case of the body leaves), KernelPay (the body's arithmetic by
  lower bounds), KernelAcc (the running minimum across the grid, by induction on the grid point), KernelArr
  (every element of the result array), KernelRun (the host tail and the run). Reference side: RefRun (the host
  program as a straight line of operations), RefPad (the padded array at an index), RefValue (the three minima
  and the run). The frames of the two kernel programs are the generated frame runs; the reference's frame is
  its run with the result dropped; nothing was rewritten by the idealization, so `preserves` is trivial.
-/
import proofs.«151754_j72593537237683_2_alg».proof.Defs
import proofs.«151754_j72593537237683_2_alg».proof.Proof.Gen.Kernel
import proofs.«151754_j72593537237683_2_alg».proof.Proof.Gen.Kernel.Skeleton
import proofs.«151754_j72593537237683_2_alg».proof.Proof.Gen.Kernel.Launch
import proofs.«151754_j72593537237683_2_alg».proof.Proof.Gen.Kernel.Points
import proofs.«151754_j72593537237683_2_alg».proof.Proof.Gen.Kernel.Frame
import proofs.«151754_j72593537237683_2_alg».proof.Proof.Gen.KernelIdeal
import proofs.«151754_j72593537237683_2_alg».proof.Proof.Gen.KernelIdeal.Skeleton
import proofs.«151754_j72593537237683_2_alg».proof.Proof.Gen.KernelIdeal.Launch
import proofs.«151754_j72593537237683_2_alg».proof.Proof.Gen.KernelIdeal.Points
import proofs.«151754_j72593537237683_2_alg».proof.Proof.Gen.KernelIdeal.Frame
import proofs.«151754_j72593537237683_2_alg».proof.Proof.Gen.ReferenceIdeal
import proofs.«151754_j72593537237683_2_alg».proof.Proof.Gen.Pre_finite_inputs
import proofs.«151754_j72593537237683_2_alg».proof.Proof.KernelRun
import proofs.«151754_j72593537237683_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end at the mean of the per-image minima of arguments that agree: the kernel's column 0 and
    the reference's three-fold minimum of the padded array have the same lower bounds, hence are one vector. -/
theorem algebraic : Cert.algebraic_KernelIdeal_ReferenceIdeal := by
  intro m ρ m' ρ' _ hagree
  refine ⟨fun c => Cert.DarkMin.mean32 (Cert.KernelIdeal.KVal.kvec m c) Cert.KernelIdeal.Facts₀.reducesTo_S32_S_d0
    Cert.KernelIdeal.Facts₀.h_S_, Cert.KernelIdeal.KVal.run m ρ, ?_⟩
  refine (θ_run Cert.ReferenceIdeal.defs _ _).mono (fun _ h c => ⟨(h c).1.trans ?_, (h c).2⟩)
    (Cert.ReferenceIdeal.RefValue.run m' ρ')
  have e : Cert.ReferenceIdeal.RefValue.refMin
        (m' ((c.tc : Thread Cert.ReferenceIdeal.nD Cert.ReferenceIdeal.τ).loc Cert.ReferenceIdeal.main_arg0))
      = Cert.KernelIdeal.KVal.kvec m c :=
    Cert.DarkMin.IsBatchMin.unique
      (by rw [hagree c]; exact Cert.ReferenceIdeal.RefValue.refMin_isBatchMin _)
      (Cert.KernelIdeal.KVal.kvec_isBatchMin m c)
  rw [e]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
